-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  main_v3
-- ==== Kernel.lean ====
abbrev S8x4096x2048 : Shape := ⟨3, ![8, 4096, 2048]⟩
abbrev S8x8x128 : Shape := ⟨3, ![8, 8, 128]⟩
abbrev S1x1024x2048 : Shape := ⟨3, ![1, 1024, 2048]⟩
abbrev S1x8x128 : Shape := ⟨3, ![1, 8, 128]⟩
abbrev S1x2048 : Shape := ⟨2, ![1, 2048]⟩
abbrev S1x1 : Shape := ⟨2, ![1, 1]⟩
abbrev S1024x2048 : Shape := ⟨2, ![1024, 2048]⟩
abbrev S1024 : Shape := ⟨1, ![1024]⟩
abbrev S1024x1 : Shape := ⟨2, ![1024, 1]⟩
abbrev S1 : Shape := ⟨1, ![1]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S8x8x128, .f32⟩
  | .hbm, ⟨2, _⟩ => ⟨S8x1x1, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x128, .f32⟩
  | .local _ .vmem, ⟨3, _⟩ => ⟨S1x8x128, .f32⟩
  | .local _ .vmem, ⟨4, _⟩ => ⟨S1x2048, .f32⟩
  | .local _ .vmem, ⟨5, _⟩ => ⟨S1x1, .f32⟩
  | .local _ .vmem, ⟨6, _⟩ => ⟨S1x1, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_18 : BitVec 32 := 0#32
  let v42 : BitVec 1 := Scalar.cmpi .ne v41 c0_i32_18
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  rotates_S1024x2048_d0 : S1024x2048.Rotates 0 none
  rotates_S1024x1_d0 : S1024x1.Rotates 0 none
  reduces_S1024x1_S1 : S1024x1.Reduces [0] S1
  shapeCasts_S1_S1x1 : S1.ShapeCasts S1x1
  slices_S1024x1_o1023_0_S1x1 : S1024x1.Slices ![1023, 0] S1x1
  inb_S1x2048_S1x2048_0_0 : ∀ a, (![0, 0] : Fin 2 → Nat) a + S1x2048.size a ≤ S1x2048.size a
  h_S1x2048 : 0 < S1x2048.numel
  slices_S1024x2048_o0_0_S1x2048 : S1024x2048.Slices ![0, 0] S1x2048
  slices_S1024x1_o0_0_S1x1 : S1024x1.Slices ![0, 0] S1x1
  reduces_S1x2048_S1 : S1x2048.Reduces [1] S1
  slices_S1024x2048_o1023_0_S1x2048 : S1024x2048.Slices ![1023, 0] S1x2048
  shapeCasts_S1x2048_S1x2048 : S1x2048.ShapeCasts S1x2048
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S8x8x128.size a
  hwx0_1 : ∀ i : grid0.Coords, EltTy.bits .f32 = 32 ∨ (Rect.block (s := S8x8x128) S1x8x128.size (cc0_transform_1 i) (hinb0_1 i)).WholeWords (EltTy.packing .f32)

variable [Facts₀]

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

class Facts : Prop extends Facts₀ where

variable [Facts]
-- ==== ReferenceIdeal.lean ====
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x4095x2048 : Shape := ⟨3, ![8, 4095, 2048]⟩
abbrev S8x4095 : Shape := ⟨2, ![8, 4095]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S_, .f32⟩
  | .hbm, ⟨3, _⟩ => ⟨S8x4096, .f32⟩
  | .hbm, ⟨4, _⟩ => ⟨S8x4096x1, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x2048, .f32⟩
  | .hbm, ⟨10, _⟩ => ⟨S8x4096x2048, .f32⟩
  | .hbm, ⟨11, _⟩ => ⟨S8x4095x2048, .f32⟩
  | .hbm, ⟨12, _⟩ => ⟨S8x4095x2048, .f32⟩
  | .hbm, ⟨13, _⟩ => ⟨S8x4095x2048, .f32⟩
  | .hbm, ⟨14, _⟩ => ⟨S_, .f32⟩
  | .hbm, ⟨15, _⟩ => ⟨S8x4095, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  slices_S8x4096x2048_S8x4095x2048_0_0_0 : S8x4096x2048.Slices ![0, 0, 0] S8x4095x2048
  slices_S8x4096x2048_S8x4095x2048_0_1_0 : S8x4096x2048.Slices ![0, 1, 0] S8x4095x2048
  reducesTo_S8x4095x2048_S8x4095_d2 : S8x4095x2048.ReducesTo [2] S8x4095
  reducesTo_S8x4095_S_d0_1 : S8x4095.ReducesTo [0, 1] S_

variable [Facts₀]

class Facts : Prop extends Facts₀ where

variable [Facts]
-- ==== Proof.K.Runs.lean ====
import proofs.«130767_j40424232190289_2_alg».proof.Proof.Gen.Kernel.Frame
import proofs.«130767_j40424232190289_2_alg».proof.Proof.Gen.Kernel.Skeleton

/-! The kernel body's three branches as conditions on the grid point, and the buffers it is run on.

The grid is 8 sequences by 4 chunks, the chunk the fast coordinate: point `t` works on chunk
`t % 4` of sequence `t / 4`. The body resets its running sum when the chunk is the first, adds
the pair across the chunk boundary when it is not the first, and stores the running sum into
the output block when it is the last. -/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The chunk is the first of its sequence", as the body computes it. -/
abbrev isFirst (i : grid0.Coords) : Prop :=
  Scalar.cmpi .ne (Scalar.extui (Scalar.cmpi .eq (BitVec.ofNat 32 (i 1).val) 0#32)) 0#32 = 1#1
/-- "The chunk is not the first of its sequence", as the body computes it (a signed comparison with zero). -/
abbrev isLater (i : grid0.Coords) : Prop :=
  Scalar.cmpi .ne (Scalar.extui (Scalar.cmpi .sgt (BitVec.ofNat 32 (i 1).val) 0#32)) 0#32 = 1#1
/-- "The chunk is the last of its sequence", as the body computes it. -/
abbrev isLast (i : grid0.Coords) : Prop := k0_cond3 i = 1#1

/-- The first chunk is at the points divisible by four. -/
theorem isFirst_iff : ∀ t : Fin cfg0.N, isFirst (grid0.coords t) ↔ t.val % 4 = 0 :=
  (by decide +kernel : ∀ t : Fin grid0.N, isFirst (grid0.coords t) ↔ t.val % 4 = 0)
/-- A later chunk is at the other points. -/
theorem isLater_iff : ∀ t : Fin cfg0.N, isLater (grid0.coords t) ↔ ¬ t.val % 4 = 0 :=
  (by decide +kernel : ∀ t : Fin grid0.N, isLater (grid0.coords t) ↔ ¬ t.val % 4 = 0)
/-- The last chunk is at the points that leave three. -/
theorem isLast_iff : ∀ t : Fin cfg0.N, isLast (grid0.coords t) ↔ t.val % 4 = 3 :=
  (by decide +kernel : ∀ t : Fin grid0.N, isLast (grid0.coords t) ↔ t.val % 4 = 3)

/-- The input window is never idle. -/
theorem live_in : ∀ t : Fin cfg0.N, cfg0.idle 0 (grid0.coords t) = false := by decide +kernel
/-- Off the last chunk the output window is idle: the body stores nothing into it, -/
theorem idle_out : ∀ t : Fin cfg0.N, ¬isLast (grid0.coords t) → cfg0.idle 1 (grid0.coords t) = true := by decide +kernel
/-- and its block is not written back there. -/
theorem noFlush_out : ∀ t : Fin cfg0.N, ¬isLast (grid0.coords t) → (cfg0.win 1).flush t = false := by decide +kernel
/-- At the last chunk the output window is live. -/
theorem live_out : ∀ t : Fin cfg0.N, isLast (grid0.coords t) → cfg0.idle 1 (grid0.coords t) = false := by decide +kernel

/-- The staging memrefs the body is called with at point `t`, and their wholeness. -/
abbrev msIn (t : Fin cfg0.N) : Memref sig .tc .vmem S1x1024x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x8x128 .f32 := win0_1.stage (cfg0.slots t 1)
abbrev hsOut (t : Fin cfg0.N) : (msOut t).IsWhole := hstage0_1 ((cfg0.slots t 1).cast nbuf0_1)
/-- The three scratch buffers: the last row of the chunk before, its length, the running sum. -/
abbrev scRow : Memref sig .tc .vmem S1x2048 .f32 := Memref.whole cc0_scratch0
abbrev scLen : Memref sig .tc .vmem S1x1 .f32 := Memref.whole cc0_scratch1
abbrev scSum : Memref sig .tc .vmem S1x1 .f32 := Memref.whole cc0_scratch2
/-- One staging buffer of the output window, through which its contents are stated. -/
abbrev VOut : View sig .tc .vmem S1x8x128 .f32 := (Memref.whole cc0_stg1_0 : Memref sig .tc .vmem S1x8x128 .f32).view

/-- What the region may use and need not describe, with the scratch buffers as memrefs owned at some contents. -/
theorem PhiA_eq (c : Dev nD) :
    (Pipeline.ΦA spec0 c : sProp 𝕄)
      = iprop(iprop((∃ d, owns (c : Thread nD τ) scRow fullShare d) ∗ (∃ d, owns (c : Thread nD τ) scLen fullShare d) ∗ (∃ d, owns (c : Thread nD τ) scSum fullShare d)) ∗ (∃ r, prngReg c r)) := by
  unfold Pipeline.ΦA; rw [scopedRest0_eq]; simp only [scRow, scLen, scSum, owns_whole]; try rfl

end Cert.Kernel.Body

end
-- ==== Proof.K.RunFirst.lean ====
import proofs.«130767_j40424232190289_2_alg».proof.Proof.K.Runs

/-! The body at the first chunk of a sequence: the running sum is reset, no boundary pair is added,
nothing is stored into the output block. -/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first chunk of a sequence, on whole buffers — the input block at `x0`, the output block at `xi`
    (handed back untouched), the three scratch buffers at anything — the body runs to its end and leaves the
    input and output blocks as they were and each scratch buffer with the listed stores written (last first):
    the chunk's last row, that row's length, and the running sum (zero, then the chunk's own contribution added). -/
noncomputable def runFirst (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : isFirst i) (h2 : ¬isLater i) (h3 : ¬isLast i)
    (x0 : Vec F S1x1024x2048 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare xi
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨[], ?_, ?_, ?_, fun xi E K => ?run⟩
  case run =>
    simp only [cc0__coherence_kernel_eq_skeleton]; unfold cc0__coherence_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Body

end
-- ==== Proof.K.RunMiddle.lean ====
import proofs.«130767_j40424232190289_2_alg».proof.Proof.K.RunFirst

/-! The body at a middle chunk of a sequence: the pair across the chunk boundary and the chunk's own
contribution are added to the running sum, nothing is stored into the output block. -/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle chunk, on whole buffers — the input block at `x0`, the output block at `xi` (handed back
    untouched), the scratch buffers at what the chunk before left (`sRow`, `sLen`, `sSum`) — the body runs to
    its end and leaves the input and output blocks as they were and each scratch buffer with the listed stores
    written (last first). -/
noncomputable def runMiddle (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : ¬isFirst i) (h2 : isLater i) (h3 : ¬isLast i)
    (x0 : Vec F S1x1024x2048 .f32) (sRow : Vec F S1x2048 .f32) (sLen : Vec F S1x1 .f32) (sSum : Vec F S1x1 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare xi
            ∗ owns (c : Thread nD τ) arg4 fullShare sRow ∗ owns (c : Thread nD τ) arg5 fullShare sLen ∗ owns (c : Thread nD τ) arg6 fullShare sSum
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨[], ?_, ?_, ?_, fun xi E K => ?run⟩
  case run =>
    simp only [cc0__coherence_kernel_eq_skeleton]; unfold cc0__coherence_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hfs0; obtain rfl := harg5.eq_unread hfs1; obtain rfl := harg6.eq_unread hfs2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.Kernel.Body

end
-- ==== Proof.K.RunLast.lean ====
import proofs.«130767_j40424232190289_2_alg».proof.Proof.K.RunMiddle

/-! The body at the last chunk of a sequence: as at a middle chunk, and then the running sum is spread
over the whole output block. -/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last chunk, on whole buffers — the input block at `x0`, the output block at anything, the scratch
    buffers at what the chunk before left — the body runs to its end and leaves the input block as it was and
    the output block and each scratch buffer with the listed stores written (last first). -/
noncomputable def runLast (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : ¬isFirst i) (h2 : isLater i) (h3 : isLast i)
    (x0 : Vec F S1x1024x2048 .f32) (sRow : Vec F S1x2048 .f32) (sLen : Vec F S1x1 .f32) (sSum : Vec F S1x1 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare sRow ∗ owns (c : Thread nD τ) arg5 fullShare sLen ∗ owns (c : Thread nD τ) arg6 fullShare sSum
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨?_, ?_, ?_, ?_, fun E K => ?run⟩
  case run =>
    simp only [cc0__coherence_kernel_eq_skeleton]; unfold cc0__coherence_kernel_skel
    unfold owns
    iintro ⟨⟨%f0, %hf0, H0⟩, ⟨%d1, %f1, -, H1⟩, ⟨%fs0, %hfs0, HS0⟩, ⟨%fs1, %hfs1, HS1⟩, ⟨%fs2, %hfs2, HS2⟩, Hk⟩
    obtain rfl := harg2.eq_unread hf0
    obtain rfl := harg4.eq_unread hfs0; obtain rfl := harg5.eq_unread hfs1; obtain rfl := harg6.eq_unread hfs2
    sl_exec (disch := first | exact h1 | exact h2 | exact h3)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    iexists _; iexact HS2

end Cert.Kernel.Body

end
-- ==== Proof.K.Frame.lean ====
import proofs.«130767_j40424232190289_2_alg».proof.Proof.K.RunLast

/-! The kernel's run over the whole grid.

Point by point the three scratch buffers carry the last row of the chunk before, that row's length and
the running sum of the sequence; the output block is stored at the last chunk of each sequence only,
and written back there. What the four buffers hold after each point is defined by recursion on the
point from the three branches' stores; with it the region's proof data, the body obligation at a
generic point, and the run of the whole program. -/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as views: what they hold is stated through them. -/
abbrev VRow : View sig .tc .vmem S1x2048 .f32 := scRow.view
abbrev VLen : View sig .tc .vmem S1x1 .f32 := scLen.view
abbrev VSum : View sig .tc .vmem S1x1 .f32 := scSum.view

/-- What the output block and the three scratch buffers hold: output block, last row, its length, running sum. -/
abbrev St (F : FTy → Type) [FloatOps F] : Type := Vec F S1x8x128 .f32 × Vec F S1x2048 .f32 × Vec F S1x1 .f32 × Vec F S1x1 .f32

/-! ## What each branch leaves -/

section
variable (c : Dev nD) (t : Fin cfg0.N)

/-- The stores of the first-chunk branch cover each scratch buffer. -/
theorem coverRow_first (h1 : isFirst (grid0.coords t)) (h2 : ¬isLater (grid0.coords t)) (h3 : ¬isLast (grid0.coords t)) (x0 : Vec F S1x1024x2048 .f32) (y : S1x2048.Idx) :
    ∃ pc ∈ (runFirst c (grid0.coords t) (msIn t) (hsIn t) (msOut t) (hsOut t) scRow (Memref.isWhole_whole _) scLen (Memref.isWhole_whole _) scSum (Memref.isWhole_whole _) h1 h2 h3 x0).2.1, y ∈ pc.1.set :=
  View.cover_of_tiledL _ S1x2048.size (by sl_kernel_rfl) y
theorem coverLen_first (h1 : isFirst (grid0.coords t)) (h2 : ¬isLater (grid0.coords t)) (h3 : ¬isLast (grid0.coords t)) (x0 : Vec F S1x1024x2048 .f32) (y : S1x1.Idx) :
    ∃ pc ∈ (runFirst c (grid0.coords t) (msIn t) (hsIn t) (msOut t) (hsOut t) scRow (Memref.isWhole_whole _) scLen (Memref.isWhole_whole _) scSum (Memref.isWhole_whole _) h1 h2 h3 x0).2.2.1, y ∈ pc.1.set :=
  View.cover_of_tiledL _ S1x1.size (by sl_kernel_rfl) y
theorem coverSum_first (h1 : isFirst (grid0.coords t)) (h2 : ¬isLater (grid0.coords t)) (h3 : ¬isLast (grid0.coords t)) (x0 : Vec F S1x1024x2048 .f32) (y : S1x1.Idx) :
    ∃ pc ∈ (runFirst c (grid0.coords t) (msIn t) (hsIn t) (msOut t) (hsOut t) scRow (Memref.isWhole_whole _) scLen (Memref.isWhole_whole _) scSum (Memref.isWhole_whole _) h1 h2 h3 x0).2.2.2.1, y ∈ pc.1.set :=
  View.cover_of_tiledL _ S1x1.size (by sl_kernel_rfl) y

/-- What the first-chunk branch leaves: its stores read back (the output block untouched: a placeholder there). -/
def leftFirst (h1 : isFirst (grid0.coords t)) (h2 : ¬isLater (grid0.coords t)) (h3 : ¬isLast (grid0.coords t)) (x0 : Vec F S1x1024x2048 .f32) : St F :=
  (VOut.read (Elt F) (VOut.writes (Elt F) VOut.junk (runFirst c (grid0.coords t) (msIn t) (hsIn t) (msOut t) (hsOut t) scRow (Memref.isWhole_whole _) scLen (Memref.isWhole_whole _) scSum (Memref.isWhole_whole _) h1 h2 h3 x0).1),
   VRow.read (Elt F) (VRow.writes (Elt F) VRow.junk (runFirst c (grid0.coords t) (msIn t) (hsIn t) (msOut t) (hsOut t) scRow (Memref.isWhole_whole _) scLen (Memref.isWhole_whole _) scSum (Memref.isWhole_whole _) h1 h2 h3 x0).2.1),
   VLen.read (Elt F) (VLen.writes (Elt F) VLen.junk (runFirst c (grid0.coords t) (msIn t) (hsIn t) (msOut t) (hsOut t) scRow (Memref.isWhole_whole _) scLen (Memref.isWhole_whole _) scSum (Memref.isWhole_whole _) h1 h2 h3 x0).2.2.1),
   VSum.read (Elt F) (VSum.writes (Elt F) VSum.junk (runFirst c (grid0.coords t) (msIn t) (hsIn t) (msOut t) (hsOut t) scRow (Memref.isWhole_whole _) scLen (Memref.isWhole_whole _) scSum (Memref.isWhole_whole _) h1 h2 h3 x0).2.2.2.1))

/-- The stores of the middle-chunk branch cover each scratch buffer. -/
theorem coverRow_middle (h1 : ¬isFirst (grid0.coords t)) (h2 : isLater (grid0.coords t)) (h3 : ¬isLast (grid0.coords t)) (x0 : Vec F S1x1024x2048 .f32) (s : St F) (y : S1x2048.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.1, y ∈ pc.1.set :=
  View.cover_of_tiledL _ S1x2048.size (by sl_kernel_rfl) y
theorem coverLen_middle (h1 : ¬isFirst (grid0.coords t)) (h2 : isLater (grid0.coords t)) (h3 : ¬isLast (grid0.coords t)) (x0 : Vec F S1x1024x2048 .f32) (s : St F) (y : S1x1.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1, y ∈ pc.1.set :=
  View.cover_of_tiledL _ S1x1.size (by sl_kernel_rfl) y
theorem coverSum_middle (h1 : ¬isFirst (grid0.coords t)) (h2 : isLater (grid0.coords t)) (h3 : ¬isLast (grid0.coords t)) (x0 : Vec F S1x1024x2048 .f32) (s : St F) (y : S1x1.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1, y ∈ pc.1.set :=
  View.cover_of_tiledL _ S1x1.size (by sl_kernel_rfl) y

/-- What the middle-chunk branch leaves over the state `s` of the point before. -/
def leftMiddle (h1 : ¬isFirst (grid0.coords t)) (h2 : isLater (grid0.coords t)) (h3 : ¬isLast (grid0.coords t)) (x0 : Vec F S1x1024x2048 .f32) (s : St F) : St F :=
  (VOut.read (Elt F) (VOut.writes (Elt F) VOut.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).1),
   VRow.read (Elt F) (VRow.writes (Elt F) VRow.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.1),
   VLen.read (Elt F) (VLen.writes (Elt F) VLen.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1),
   VSum.read (Elt F) (VSum.writes (Elt F) VSum.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1))

/-- The stores of the last-chunk branch cover the output block and each scratch buffer. -/
theorem coverOut_last (h1 : ¬isFirst (grid0.coords t)) (h2 : isLater (grid0.coords t)) (h3 : isLast (grid0.coords t)) (x0 : Vec F S1x1024x2048 .f32) (s : St F) (y : S1x8x128.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).1, y ∈ pc.1.set :=
  View.cover_of_tiledL _ S1x8x128.size (by sl_kernel_rfl) y
theorem coverRow_last (h1 : ¬isFirst (grid0.coords t)) (h2 : isLater (grid0.coords t)) (h3 : isLast (grid0.coords t)) (x0 : Vec F S1x1024x2048 .f32) (s : St F) (y : S1x2048.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.1, y ∈ pc.1.set :=
  View.cover_of_tiledL _ S1x2048.size (by sl_kernel_rfl) y
theorem coverLen_last (h1 : ¬isFirst (grid0.coords t)) (h2 : isLater (grid0.coords t)) (h3 : isLast (grid0.coords t)) (x0 : Vec F S1x1024x2048 .f32) (s : St F) (y : S1x1.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1, y ∈ pc.1.set :=
  View.cover_of_tiledL _ S1x1.size (by sl_kernel_rfl) y
theorem coverSum_last (h1 : ¬isFirst (grid0.coords t)) (h2 : isLater (grid0.coords t)) (h3 : isLast (grid0.coords t)) (x0 : Vec F S1x1024x2048 .f32) (s : St F) (y : S1x1.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1, y ∈ pc.1.set :=
  View.cover_of_tiledL _ S1x1.size (by sl_kernel_rfl) y

/-- What the last-chunk branch leaves over the state `s` of the point before. -/
def leftLast (h1 : ¬isFirst (grid0.coords t)) (h2 : isLater (grid0.coords t)) (h3 : isLast (grid0.coords t)) (x0 : Vec F S1x1024x2048 .f32) (s : St F) : St F :=
  (VOut.read (Elt F) (VOut.writes (Elt F) VOut.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).1),
   VRow.read (Elt F) (VRow.writes (Elt F) VRow.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.1),
   VLen.read (Elt F) (VLen.writes (Elt F) VLen.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1),
   VSum.read (Elt F) (VSum.writes (Elt F) VSum.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1))

end

/-! ## The state after each point -/

/-- The three branch conditions from the point's residue modulo four. -/
theorem first_of (t : Fin cfg0.N) (h : t.val % 4 = 0) : isFirst (grid0.coords t) := (isFirst_iff t).mpr h
theorem notFirst_of (t : Fin cfg0.N) (h : ¬t.val % 4 = 0) : ¬isFirst (grid0.coords t) := fun h' => h ((isFirst_iff t).mp h')
theorem later_of (t : Fin cfg0.N) (h : ¬t.val % 4 = 0) : isLater (grid0.coords t) := (isLater_iff t).mpr h
theorem notLater_of (t : Fin cfg0.N) (h : t.val % 4 = 0) : ¬isLater (grid0.coords t) := fun h' => (isLater_iff t).mp h' h
theorem last_of (t : Fin cfg0.N) (h : t.val % 4 = 3) : isLast (grid0.coords t) := (isLast_iff t).mpr h
theorem notLast_of (t : Fin cfg0.N) (h : ¬t.val % 4 = 3) : ¬isLast (grid0.coords t) := fun h' => h ((isLast_iff t).mp h')

/-- What the output block and the scratch buffers hold after the body at position `n`: the branch the
    residue of `n` modulo four selects, run on the point's input block and on the state the point before left. -/
def stateAt (c : Dev nD) : (n : ℕ) → n < cfg0.N → St F
  | 0, hn => leftFirst c ⟨0, hn⟩ (first_of ⟨0, hn⟩ (Nat.zero_mod _)) (notLater_of ⟨0, hn⟩ (Nat.zero_mod _)) (notLast_of ⟨0, hn⟩ (by show ¬((0 : ℕ) % 4 = 3); omega)) (iblk m c 0 ⟨0, hn⟩)
  | n + 1, hn =>
    if h0 : (n + 1) % 4 = 0 then
      leftFirst c ⟨n + 1, hn⟩ (first_of ⟨n + 1, hn⟩ h0) (notLater_of ⟨n + 1, hn⟩ h0) (notLast_of ⟨n + 1, hn⟩ (by show ¬(n + 1) % 4 = 3; omega)) (iblk m c 0 ⟨n + 1, hn⟩)
    else if h3 : (n + 1) % 4 = 3 then
      leftLast c ⟨n + 1, hn⟩ (notFirst_of ⟨n + 1, hn⟩ h0) (later_of ⟨n + 1, hn⟩ h0) (last_of ⟨n + 1, hn⟩ h3) (iblk m c 0 ⟨n + 1, hn⟩) (stateAt c n (Nat.lt_of_succ_lt hn))
    else
      leftMiddle c ⟨n + 1, hn⟩ (notFirst_of ⟨n + 1, hn⟩ h0) (later_of ⟨n + 1, hn⟩ h0) (notLast_of ⟨n + 1, hn⟩ h3) (iblk m c 0 ⟨n + 1, hn⟩) (stateAt c n (Nat.lt_of_succ_lt hn))

/-- At the first chunk of a sequence the state is what the first-chunk branch leaves. -/
theorem stateAt_first (c : Dev nD) (t : Fin cfg0.N) (h0 : t.val % 4 = 0) (h3 : ¬t.val % 4 = 3) :
    stateAt m c t.val t.isLt = leftFirst c t (first_of t h0) (notLater_of t h0) (notLast_of t h3) (iblk m c 0 t) := by
  obtain ⟨n, hn⟩ := t
  cases n with
  | zero => rfl
  | succ n => exact (dif_pos h0).trans rfl

/-- At a middle chunk, what the middle-chunk branch leaves over the state of the point before. -/
theorem stateAt_middle (c : Dev nD) (t : Fin cfg0.N) (h0 : ¬t.val % 4 = 0) (h3 : ¬t.val % 4 = 3) :
    stateAt m c t.val t.isLt = leftMiddle c t (notFirst_of t h0) (later_of t h0) (notLast_of t h3) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

/-- At the last chunk, what the last-chunk branch leaves over the state of the point before. -/
theorem stateAt_last (c : Dev nD) (t : Fin cfg0.N) (h0 : ¬t.val % 4 = 0) (h3 : t.val % 4 = 3) :
    stateAt m c t.val t.isLt = leftLast c t (notFirst_of t h0) (later_of t h0) (last_of t h3) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-! ## The region's invariant and proof data -/

/-- Before position `n`: at the start the scratch buffers at anything; afterwards each at what the point
    before left in it; and the generator register at some state. -/
def PhiS (c : Dev nD) : (n : ℕ) → n ≤ cfg0.N → sProp 𝕄
  | 0, _ => Pipeline.ΦA spec0 c
  | n + 1, hn => iprop(iprop(owns (c : Thread nD τ) scRow fullShare (stateAt m c n hn).2.1 ∗ owns (c : Thread nD τ) scLen fullShare (stateAt m c n hn).2.2.1 ∗ owns (c : Thread nD τ) scSum fullShare (stateAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scRow fullShare (stateAt m c n hn).2.1 ∗ owns (c : Thread nD τ) scLen fullShare (stateAt m c n hn).2.2.1 ∗ owns (c : Thread nD τ) scSum fullShare (stateAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scRow fullShare (stateAt m c (n - 1) (by omega)).2.1 ∗ owns (c : Thread nD τ) scLen fullShare (stateAt m c (n - 1) (by omega)).2.2.1 ∗ owns (c : Thread nD τ) scSum fullShare (stateAt m c (n - 1) (by omega)).2.2.2) ∗ (∃ r, prngReg c r)) := by
  cases n with
  | zero => exact absurd rfl hz
  | succ n => rfl

/-- The proof data of the pipeline on core `c`: the arrays as the region finds them; after the body at point
    `t` the input's buffer at its block and the output's at the state's first component; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the residue of the point modulo four says
    which branch runs; the invariant hands the body the scratch buffers at what the point before left (at
    anything at the very first point) and takes them back at this point's state; off the last chunk the
    output's buffer is handed back untouched, at the last chunk it is covered by the body's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (msIn t) fullShare ((dats m 0 c).after 0 t) from by
    unfold Dat.leavesExact; rw [live_in t], after_in]
  by_cases h0 : t.val % 4 = 0
  · have h3 : ¬t.val % 4 = 3 := by omega
    rw [Dat.leavesExact_idle (dats m 0 c) 1 t (idle_out t (notLast_of t h3)) (noFlush_out t (notLast_of t h3))]
    rw [stateAt_first m c t h0 h3]
    unfold leftFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩⟩
      iapply ((runFirst c (grid0.coords t) (msIn t) (hsIn t) (msOut t) (hsOut t) scRow (Memref.isWhole_whole _) scLen (Memref.isWhole_whole _) scSum (Memref.isWhole_whole _) (first_of t h0) (notLater_of t h0) (notLast_of t h3) (iblk m c 0 t)).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_first c t _ _ _ _)
          isplitl [HS1]
          · unfold owns; iexists _; isplitr
            swap; · iexact HS1
            ipureintro; exact View.read_writes_of_cover _ _ _ _ _ (coverLen_first c t _ _ _ _)
          · unfold owns; iexists _; isplitr
            swap; · iexact HS2
            ipureintro; exact View.read_writes_of_cover _ _ _ _ _ (coverSum_first c t _ _ _ _)
        iexact Hg
      isplitl [Ho]; · iexact Ho
      isplitl [H0]; · iexact H0
      iexists _; iexact H1
    · rw [PhiS_castSucc m c t, PhiS_pos m c _ _ hz]
      iintro ⟨⟨⟨HS0, HS1, HS2⟩, Hg⟩, Ho, ⟨%d0, H0⟩, ⟨%d1, H1⟩⟩
      iapply ((runFirst c (grid0.coords t) (msIn t) (hsIn t) (msOut t) (hsOut t) scRow (Memref.isWhole_whole _) scLen (Memref.isWhole_whole _) scSum (Memref.isWhole_whole _) (first_of t h0) (notLater_of t h0) (notLast_of t h3) (iblk m c 0 t)).2.2.2.2 _ Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_first c t _ _ _ _)
          isplitl [HS1]
          · unfold owns; iexists _; isplitr
            swap; · iexact HS1
            ipureintro; exact View.read_writes_of_cover _ _ _ _ _ (coverLen_first c t _ _ _ _)
          · unfold owns; iexists _; isplitr
            swap; · iexact HS2
            ipureintro; exact View.read_writes_of_cover _ _ _ _ _ (coverSum_first c t _ _ _ _)
        iexact Hg
      isplitl [Ho]; · iexact Ho
      isplitl [H0]; · iexact H0
      iexists _; iexact H1
  · have hz : t.val ≠ 0 := by omega
    by_cases h3 : t.val % 4 = 3
    · rw [show (dats m 0 c).leavesExact 1 t = owns (c : Thread nD τ) (msOut t) fullShare ((dats m 0 c).after 1 t) from by
        unfold Dat.leavesExact; rw [live_out t (last_of t h3)], after_out]
      rw [stateAt_last m c t h0 h3]
      unfold leftLast; (try dsimp only)
      rw [PhiS_castSucc m c t, PhiS_pos m c _ _ hz]
      iintro ⟨⟨⟨HS0, HS1, HS2⟩, Hg⟩, Ho, ⟨%d0, H0⟩, ⟨%d1, H1⟩⟩
      iapply ((runLast c (grid0.coords t) (msIn t) (hsIn t) (msOut t) (hsOut t) scRow (Memref.isWhole_whole _) scLen (Memref.isWhole_whole _) scSum (Memref.isWhole_whole _) (notFirst_of t h0) (later_of t h0) (last_of t h3) (iblk m c 0 t) _ _ _).2.2.2.2 Set.univ _)
      isplitl [H0]; · iexact H0
      isplitl [H1]; · iexists _; iexact H1
      isplitl [HS0]; · iexact HS0
      isplitl [HS1]; · iexact HS1
      isplitl [HS2]; · iexact HS2
      iintro ⟨H0, ⟨%e1, H1⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_last c t _ _ _ _ _)
          isplitl [HS1]
          · unfold owns; iexists _; isplitr
            swap; · iexact HS1
            ipureintro; exact View.read_writes_of_cover _ _ _ _ _ (coverLen_last c t _ _ _ _ _)
          · unfold owns; iexists _; isplitr
            swap; · iexact HS2
            ipureintro; exact View.read_writes_of_cover _ _ _ _ _ (coverSum_last c t _ _ _ _ _)
        iexact Hg
      isplitl [Ho]; · iexact Ho
      isplitl [H0]; · iexact H0
      unfold owns; iexists _; isplitr
      swap; · iexact H1
      ipureintro; exact View.read_writes_of_cover _ _ _ _ _ (coverOut_last c t _ _ _ _ _)
    · rw [Dat.leavesExact_idle (dats m 0 c) 1 t (idle_out t (notLast_of t h3)) (noFlush_out t (notLast_of t h3))]
      rw [stateAt_middle m c t h0 h3]
      unfold leftMiddle; (try dsimp only)
      rw [PhiS_castSucc m c t, PhiS_pos m c _ _ hz]
      iintro ⟨⟨⟨HS0, HS1, HS2⟩, Hg⟩, Ho, ⟨%d0, H0⟩, ⟨%d1, H1⟩⟩
      iapply ((runMiddle c (grid0.coords t) (msIn t) (hsIn t) (msOut t) (hsOut t) scRow (Memref.isWhole_whole _) scLen (Memref.isWhole_whole _) scSum (Memref.isWhole_whole _) (notFirst_of t h0) (later_of t h0) (notLast_of t h3) (iblk m c 0 t) _ _ _).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_middle c t _ _ _ _ _)
          isplitl [HS1]
          · unfold owns; iexists _; isplitr
            swap; · iexact HS1
            ipureintro; exact View.read_writes_of_cover _ _ _ _ _ (coverLen_middle c t _ _ _ _ _)
          · unfold owns; iexists _; isplitr
            swap; · iexact HS2
            ipureintro; exact View.read_writes_of_cover _ _ _ _ _ (coverSum_middle c t _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's resources back: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of the program terminates, and every final
    state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, faults nowhere and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.KI.Runs.lean ====
import proofs.«130767_j40424232190289_2_alg».proof.Proof.Gen.KernelIdeal.Frame
import proofs.«130767_j40424232190289_2_alg».proof.Proof.Gen.KernelIdeal.Skeleton

/-! The kernel body's three branches as conditions on the grid point, and the buffers it is run on.

The grid is 8 sequences by 4 chunks, the chunk the fast coordinate: point `t` works on chunk
`t % 4` of sequence `t / 4`. The body resets its running sum when the chunk is the first, adds
the pair across the chunk boundary when it is not the first, and stores the running sum into
the output block when it is the last. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "The chunk is the first of its sequence", as the body computes it. -/
abbrev isFirst (i : grid0.Coords) : Prop :=
  Scalar.cmpi .ne (Scalar.extui (Scalar.cmpi .eq (BitVec.ofNat 32 (i 1).val) 0#32)) 0#32 = 1#1
/-- "The chunk is not the first of its sequence", as the body computes it (a signed comparison with zero). -/
abbrev isLater (i : grid0.Coords) : Prop :=
  Scalar.cmpi .ne (Scalar.extui (Scalar.cmpi .sgt (BitVec.ofNat 32 (i 1).val) 0#32)) 0#32 = 1#1
/-- "The chunk is the last of its sequence", as the body computes it. -/
abbrev isLast (i : grid0.Coords) : Prop := k0_cond3 i = 1#1

/-- The first chunk is at the points divisible by four. -/
theorem isFirst_iff : ∀ t : Fin cfg0.N, isFirst (grid0.coords t) ↔ t.val % 4 = 0 :=
  (by decide +kernel : ∀ t : Fin grid0.N, isFirst (grid0.coords t) ↔ t.val % 4 = 0)
/-- A later chunk is at the other points. -/
theorem isLater_iff : ∀ t : Fin cfg0.N, isLater (grid0.coords t) ↔ ¬ t.val % 4 = 0 :=
  (by decide +kernel : ∀ t : Fin grid0.N, isLater (grid0.coords t) ↔ ¬ t.val % 4 = 0)
/-- The last chunk is at the points that leave three. -/
theorem isLast_iff : ∀ t : Fin cfg0.N, isLast (grid0.coords t) ↔ t.val % 4 = 3 :=
  (by decide +kernel : ∀ t : Fin grid0.N, isLast (grid0.coords t) ↔ t.val % 4 = 3)

/-- The input window is never idle. -/
theorem live_in : ∀ t : Fin cfg0.N, cfg0.idle 0 (grid0.coords t) = false := by decide +kernel
/-- Off the last chunk the output window is idle: the body stores nothing into it, -/
theorem idle_out : ∀ t : Fin cfg0.N, ¬isLast (grid0.coords t) → cfg0.idle 1 (grid0.coords t) = true := by decide +kernel
/-- and its block is not written back there. -/
theorem noFlush_out : ∀ t : Fin cfg0.N, ¬isLast (grid0.coords t) → (cfg0.win 1).flush t = false := by decide +kernel
/-- At the last chunk the output window is live. -/
theorem live_out : ∀ t : Fin cfg0.N, isLast (grid0.coords t) → cfg0.idle 1 (grid0.coords t) = false := by decide +kernel

/-- The staging memrefs the body is called with at point `t`, and their wholeness. -/
abbrev msIn (t : Fin cfg0.N) : Memref sig .tc .vmem S1x1024x2048 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x8x128 .f32 := win0_1.stage (cfg0.slots t 1)
abbrev hsOut (t : Fin cfg0.N) : (msOut t).IsWhole := hstage0_1 ((cfg0.slots t 1).cast nbuf0_1)
/-- The three scratch buffers: the last row of the chunk before, its length, the running sum. -/
abbrev scRow : Memref sig .tc .vmem S1x2048 .f32 := Memref.whole cc0_scratch0
abbrev scLen : Memref sig .tc .vmem S1x1 .f32 := Memref.whole cc0_scratch1
abbrev scSum : Memref sig .tc .vmem S1x1 .f32 := Memref.whole cc0_scratch2
/-- One staging buffer of the output window, through which its contents are stated. -/
abbrev VOut : View sig .tc .vmem S1x8x128 .f32 := (Memref.whole cc0_stg1_0 : Memref sig .tc .vmem S1x8x128 .f32).view

/-- What the region may use and need not describe, with the scratch buffers as memrefs owned at some contents. -/
theorem PhiA_eq (c : Dev nD) :
    (Pipeline.ΦA spec0 c : sProp 𝕄)
      = iprop(iprop((∃ d, owns (c : Thread nD τ) scRow fullShare d) ∗ (∃ d, owns (c : Thread nD τ) scLen fullShare d) ∗ (∃ d, owns (c : Thread nD τ) scSum fullShare d)) ∗ (∃ r, prngReg c r)) := by
  unfold Pipeline.ΦA; rw [scopedRest0_eq]; simp only [scRow, scLen, scSum, owns_whole]; try rfl

end Cert.KernelIdeal.Body

end
-- ==== Proof.KI.RunFirst.lean ====
import proofs.«130767_j40424232190289_2_alg».proof.Proof.KI.Runs

/-! The body at the first chunk of a sequence: the running sum is reset, no boundary pair is added,
nothing is stored into the output block. -/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first chunk of a sequence, on whole buffers — the input block at `x0`, the output block at `xi`
    (handed back untouched), the three scratch buffers at anything — the body runs to its end and leaves the
    input and output blocks as they were and each scratch buffer with the listed stores written (last first):
    the chunk's last row, that row's length, and the running sum (zero, then the chunk's own contribution added). -/
noncomputable def runFirst (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : isFirst i) (h2 : ¬isLater i) (h3 : ¬isLast i)
    (x0 : Vec F S1x1024x2048 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare xi
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨[], ?_, ?_, ?_, fun xi E K => ?run⟩
  case run =>
    simp only [cc0__coherence_kernel_eq_skeleton]; unfold cc0__coherence_kernel_skel
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Body

end
-- ==== Proof.KI.RunMiddle.lean ====
import proofs.«130767_j40424232190289_2_alg».proof.Proof.KI.RunFirst

/-! The body at a middle chunk of a sequence: the pair across the chunk boundary and the chunk's own
contribution are added to the running sum, nothing is stored into the output block. -/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle chunk, on whole buffers — the input block at `x0`, the output block at `xi` (handed back
    untouched), the scratch buffers at what the chunk before left (`sRow`, `sLen`, `sSum`) — the body runs to
    its end and leaves the input and output blocks as they were and each scratch buffer with the listed stores
    written (last first). -/
noncomputable def runMiddle (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : ¬isFirst i) (h2 : isLater i) (h3 : ¬isLast i)
    (x0 : Vec F S1x1024x2048 .f32) (sRow : Vec F S1x2048 .f32) (sLen : Vec F S1x1 .f32) (sSum : Vec F S1x1 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (xi : Vec F S1x8x128 .f32) (E : Set ℕ) (K : PUnit → sProp 𝕄),
        iprop(owns (c : Thread nD τ) arg2 fullShare x0 ∗ owns (c : Thread nD τ) arg3 fullShare xi
            ∗ owns (c : Thread nD τ) arg4 fullShare sRow ∗ owns (c : Thread nD τ) arg5 fullShare sLen ∗ owns (c : Thread nD τ) arg6 fullShare sSum
            ∗ (iprop(owns (c : Thread nD τ) arg2 fullShare x0 ∗ owns (c : Thread nD τ) arg3 fullShare xi ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨[], ?_, ?_, ?_, fun xi E K => ?run⟩
  case run =>
    simp only [cc0__coherence_kernel_eq_skeleton]; unfold cc0__coherence_kernel_skel
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg4.eq_unread hfs0; obtain rfl := harg5.eq_unread hfs1; obtain rfl := harg6.eq_unread hfs2
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [HS0]; · iexists _; iexact HS0
    isplitl [HS1]; · iexists _; iexact HS1
    iexists _; iexact HS2

end Cert.KernelIdeal.Body

end
-- ==== Proof.KI.RunLast.lean ====
import proofs.«130767_j40424232190289_2_alg».proof.Proof.KI.RunMiddle

/-! The body at the last chunk of a sequence: as at a middle chunk, and then the running sum is spread
over the whole output block. -/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last chunk, on whole buffers — the input block at `x0`, the output block at anything, the scratch
    buffers at what the chunk before left — the body runs to its end and leaves the input block as it was and
    the output block and each scratch buffer with the listed stores written (last first). -/
noncomputable def runLast (c : Dev nD) (i : grid0.Coords) (arg2 : Memref sig .tc .vmem S1x1024x2048 .f32) (harg2 : arg2.IsWhole) (arg3 : Memref sig .tc .vmem S1x8x128 .f32) (harg3 : arg3.IsWhole) (arg4 : Memref sig .tc .vmem S1x2048 .f32) (harg4 : arg4.IsWhole) (arg5 : Memref sig .tc .vmem S1x1 .f32) (harg5 : arg5.IsWhole) (arg6 : Memref sig .tc .vmem S1x1 .f32) (harg6 : arg6.IsWhole) (h1 : ¬isFirst i) (h2 : isLater i) (h3 : isLast i)
    (x0 : Vec F S1x1024x2048 .f32) (sRow : Vec F S1x2048 .f32) (sLen : Vec F S1x1 .f32) (sSum : Vec F S1x1 .f32) :
    Σ' (LO : List (View.Piece (Elt F) S1x8x128 .f32)) (LRow : List (View.Piece (Elt F) S1x2048 .f32)) (LLen : List (View.Piece (Elt F) S1x1 .f32)), { LSum : List (View.Piece (Elt F) S1x1 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare sRow ∗ owns (c : Thread nD τ) arg5 fullShare sLen ∗ owns (c : Thread nD τ) arg6 fullShare sSum
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LRow) ∗ (∃ f, arg5.view.loc (c : Thread nD τ) ↦[arg5.view.set]{fullShare} arg5.view.writes (Elt F) f LLen) ∗ (∃ f, arg6.view.loc (c : Thread nD τ) ↦[arg6.view.set]{fullShare} arg6.view.writes (Elt F) f LSum)) -∗ K ⟨⟩))
          ⊢ wp frame (wpE (defs₀ (F := F)) Variants.none c none) E (cc0__coherence_kernel i arg2 harg2 arg3 harg3 arg4 harg4 arg5 harg5 arg6 harg6) K } := by
  refine ⟨?_, ?_, ?_, ?_, fun E K => ?run⟩
  case run =>
    simp only [cc0__coherence_kernel_eq_skeleton]; unfold cc0__coherence_kernel_skel
    unfold owns
    iintro ⟨⟨%f0, %hf0, H0⟩, ⟨%d1, %f1, -, H1⟩, ⟨%fs0, %hfs0, HS0⟩, ⟨%fs1, %hfs1, HS1⟩, ⟨%fs2, %hfs2, HS2⟩, Hk⟩
    obtain rfl := harg2.eq_unread hf0
    obtain rfl := harg4.eq_unread hfs0; obtain rfl := harg5.eq_unread hfs1; obtain rfl := harg6.eq_unread hfs2
    sl_exec (disch := first | exact h1 | exact h2 | exact h3)
    sl_step
    iapply Hk
    isplitl [H0]
    · iexists _; isplitr; · ipureintro; exact harg2.read_unread _
      iexact H0
    isplitl [H1]; · iexists _; iexact H1
    isplitl [HS0]; · iexists _; iexact HS0
    isplitl [HS1]; · iexists _; iexact HS1
    iexists _; iexact HS2

end Cert.KernelIdeal.Body

end
-- ==== Proof.KI.Frame.lean ====
import proofs.«130767_j40424232190289_2_alg».proof.Proof.KI.RunLast

/-! The kernel's run over the whole grid.

Point by point the three scratch buffers carry the last row of the chunk before, that row's length and
the running sum of the sequence; the output block is stored at the last chunk of each sequence only,
and written back there. What the four buffers hold after each point is defined by recursion on the
point from the three branches' stores; with it the region's proof data, the body obligation at a
generic point, and the run of the whole program. -/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as views: what they hold is stated through them. -/
abbrev VRow : View sig .tc .vmem S1x2048 .f32 := scRow.view
abbrev VLen : View sig .tc .vmem S1x1 .f32 := scLen.view
abbrev VSum : View sig .tc .vmem S1x1 .f32 := scSum.view

/-- What the output block and the three scratch buffers hold: output block, last row, its length, running sum. -/
abbrev St (F : FTy → Type) [FloatOps F] : Type := Vec F S1x8x128 .f32 × Vec F S1x2048 .f32 × Vec F S1x1 .f32 × Vec F S1x1 .f32

/-! ## What each branch leaves -/

section
variable (c : Dev nD) (t : Fin cfg0.N)

/-- The stores of the first-chunk branch cover each scratch buffer. -/
theorem coverRow_first (h1 : isFirst (grid0.coords t)) (h2 : ¬isLater (grid0.coords t)) (h3 : ¬isLast (grid0.coords t)) (x0 : Vec F S1x1024x2048 .f32) (y : S1x2048.Idx) :
    ∃ pc ∈ (runFirst c (grid0.coords t) (msIn t) (hsIn t) (msOut t) (hsOut t) scRow (Memref.isWhole_whole _) scLen (Memref.isWhole_whole _) scSum (Memref.isWhole_whole _) h1 h2 h3 x0).2.1, y ∈ pc.1.set :=
  View.cover_of_tiledL _ S1x2048.size (by sl_kernel_rfl) y
theorem coverLen_first (h1 : isFirst (grid0.coords t)) (h2 : ¬isLater (grid0.coords t)) (h3 : ¬isLast (grid0.coords t)) (x0 : Vec F S1x1024x2048 .f32) (y : S1x1.Idx) :
    ∃ pc ∈ (runFirst c (grid0.coords t) (msIn t) (hsIn t) (msOut t) (hsOut t) scRow (Memref.isWhole_whole _) scLen (Memref.isWhole_whole _) scSum (Memref.isWhole_whole _) h1 h2 h3 x0).2.2.1, y ∈ pc.1.set :=
  View.cover_of_tiledL _ S1x1.size (by sl_kernel_rfl) y
theorem coverSum_first (h1 : isFirst (grid0.coords t)) (h2 : ¬isLater (grid0.coords t)) (h3 : ¬isLast (grid0.coords t)) (x0 : Vec F S1x1024x2048 .f32) (y : S1x1.Idx) :
    ∃ pc ∈ (runFirst c (grid0.coords t) (msIn t) (hsIn t) (msOut t) (hsOut t) scRow (Memref.isWhole_whole _) scLen (Memref.isWhole_whole _) scSum (Memref.isWhole_whole _) h1 h2 h3 x0).2.2.2.1, y ∈ pc.1.set :=
  View.cover_of_tiledL _ S1x1.size (by sl_kernel_rfl) y

/-- What the first-chunk branch leaves: its stores read back (the output block untouched: a placeholder there). -/
def leftFirst (h1 : isFirst (grid0.coords t)) (h2 : ¬isLater (grid0.coords t)) (h3 : ¬isLast (grid0.coords t)) (x0 : Vec F S1x1024x2048 .f32) : St F :=
  (VOut.read (Elt F) (VOut.writes (Elt F) VOut.junk (runFirst c (grid0.coords t) (msIn t) (hsIn t) (msOut t) (hsOut t) scRow (Memref.isWhole_whole _) scLen (Memref.isWhole_whole _) scSum (Memref.isWhole_whole _) h1 h2 h3 x0).1),
   VRow.read (Elt F) (VRow.writes (Elt F) VRow.junk (runFirst c (grid0.coords t) (msIn t) (hsIn t) (msOut t) (hsOut t) scRow (Memref.isWhole_whole _) scLen (Memref.isWhole_whole _) scSum (Memref.isWhole_whole _) h1 h2 h3 x0).2.1),
   VLen.read (Elt F) (VLen.writes (Elt F) VLen.junk (runFirst c (grid0.coords t) (msIn t) (hsIn t) (msOut t) (hsOut t) scRow (Memref.isWhole_whole _) scLen (Memref.isWhole_whole _) scSum (Memref.isWhole_whole _) h1 h2 h3 x0).2.2.1),
   VSum.read (Elt F) (VSum.writes (Elt F) VSum.junk (runFirst c (grid0.coords t) (msIn t) (hsIn t) (msOut t) (hsOut t) scRow (Memref.isWhole_whole _) scLen (Memref.isWhole_whole _) scSum (Memref.isWhole_whole _) h1 h2 h3 x0).2.2.2.1))

/-- The stores of the middle-chunk branch cover each scratch buffer. -/
theorem coverRow_middle (h1 : ¬isFirst (grid0.coords t)) (h2 : isLater (grid0.coords t)) (h3 : ¬isLast (grid0.coords t)) (x0 : Vec F S1x1024x2048 .f32) (s : St F) (y : S1x2048.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.1, y ∈ pc.1.set :=
  View.cover_of_tiledL _ S1x2048.size (by sl_kernel_rfl) y
theorem coverLen_middle (h1 : ¬isFirst (grid0.coords t)) (h2 : isLater (grid0.coords t)) (h3 : ¬isLast (grid0.coords t)) (x0 : Vec F S1x1024x2048 .f32) (s : St F) (y : S1x1.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1, y ∈ pc.1.set :=
  View.cover_of_tiledL _ S1x1.size (by sl_kernel_rfl) y
theorem coverSum_middle (h1 : ¬isFirst (grid0.coords t)) (h2 : isLater (grid0.coords t)) (h3 : ¬isLast (grid0.coords t)) (x0 : Vec F S1x1024x2048 .f32) (s : St F) (y : S1x1.Idx) :
    ∃ pc ∈ (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1, y ∈ pc.1.set :=
  View.cover_of_tiledL _ S1x1.size (by sl_kernel_rfl) y

/-- What the middle-chunk branch leaves over the state `s` of the point before. -/
def leftMiddle (h1 : ¬isFirst (grid0.coords t)) (h2 : isLater (grid0.coords t)) (h3 : ¬isLast (grid0.coords t)) (x0 : Vec F S1x1024x2048 .f32) (s : St F) : St F :=
  (VOut.read (Elt F) (VOut.writes (Elt F) VOut.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).1),
   VRow.read (Elt F) (VRow.writes (Elt F) VRow.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.1),
   VLen.read (Elt F) (VLen.writes (Elt F) VLen.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1),
   VSum.read (Elt F) (VSum.writes (Elt F) VSum.junk (runMiddle c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1))

/-- The stores of the last-chunk branch cover the output block and each scratch buffer. -/
theorem coverOut_last (h1 : ¬isFirst (grid0.coords t)) (h2 : isLater (grid0.coords t)) (h3 : isLast (grid0.coords t)) (x0 : Vec F S1x1024x2048 .f32) (s : St F) (y : S1x8x128.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).1, y ∈ pc.1.set :=
  View.cover_of_tiledL _ S1x8x128.size (by sl_kernel_rfl) y
theorem coverRow_last (h1 : ¬isFirst (grid0.coords t)) (h2 : isLater (grid0.coords t)) (h3 : isLast (grid0.coords t)) (x0 : Vec F S1x1024x2048 .f32) (s : St F) (y : S1x2048.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.1, y ∈ pc.1.set :=
  View.cover_of_tiledL _ S1x2048.size (by sl_kernel_rfl) y
theorem coverLen_last (h1 : ¬isFirst (grid0.coords t)) (h2 : isLater (grid0.coords t)) (h3 : isLast (grid0.coords t)) (x0 : Vec F S1x1024x2048 .f32) (s : St F) (y : S1x1.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1, y ∈ pc.1.set :=
  View.cover_of_tiledL _ S1x1.size (by sl_kernel_rfl) y
theorem coverSum_last (h1 : ¬isFirst (grid0.coords t)) (h2 : isLater (grid0.coords t)) (h3 : isLast (grid0.coords t)) (x0 : Vec F S1x1024x2048 .f32) (s : St F) (y : S1x1.Idx) :
    ∃ pc ∈ (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1, y ∈ pc.1.set :=
  View.cover_of_tiledL _ S1x1.size (by sl_kernel_rfl) y

/-- What the last-chunk branch leaves over the state `s` of the point before. -/
def leftLast (h1 : ¬isFirst (grid0.coords t)) (h2 : isLater (grid0.coords t)) (h3 : isLast (grid0.coords t)) (x0 : Vec F S1x1024x2048 .f32) (s : St F) : St F :=
  (VOut.read (Elt F) (VOut.writes (Elt F) VOut.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).1),
   VRow.read (Elt F) (VRow.writes (Elt F) VRow.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.1),
   VLen.read (Elt F) (VLen.writes (Elt F) VLen.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.1),
   VSum.read (Elt F) (VSum.writes (Elt F) VSum.junk (runLast c (grid0.coords t) (msIn t) (hsIn t) (msOut t) (hsOut t) scRow (Memref.isWhole_whole _) scLen (Memref.isWhole_whole _) scSum (Memref.isWhole_whole _) h1 h2 h3 x0 s.2.1 s.2.2.1 s.2.2.2).2.2.2.1))

end

/-! ## The state after each point -/

/-- The three branch conditions from the point's residue modulo four. -/
theorem first_of (t : Fin cfg0.N) (h : t.val % 4 = 0) : isFirst (grid0.coords t) := (isFirst_iff t).mpr h
theorem notFirst_of (t : Fin cfg0.N) (h : ¬t.val % 4 = 0) : ¬isFirst (grid0.coords t) := fun h' => h ((isFirst_iff t).mp h')
theorem later_of (t : Fin cfg0.N) (h : ¬t.val % 4 = 0) : isLater (grid0.coords t) := (isLater_iff t).mpr h
theorem notLater_of (t : Fin cfg0.N) (h : t.val % 4 = 0) : ¬isLater (grid0.coords t) := fun h' => (isLater_iff t).mp h' h
theorem last_of (t : Fin cfg0.N) (h : t.val % 4 = 3) : isLast (grid0.coords t) := (isLast_iff t).mpr h
theorem notLast_of (t : Fin cfg0.N) (h : ¬t.val % 4 = 3) : ¬isLast (grid0.coords t) := fun h' => h ((isLast_iff t).mp h')

/-- What the output block and the scratch buffers hold after the body at position `n`: the branch the
    residue of `n` modulo four selects, run on the point's input block and on the state the point before left. -/
def stateAt (c : Dev nD) : (n : ℕ) → n < cfg0.N → St F
  | 0, hn => leftFirst c ⟨0, hn⟩ (first_of ⟨0, hn⟩ (Nat.zero_mod _)) (notLater_of ⟨0, hn⟩ (Nat.zero_mod _)) (notLast_of ⟨0, hn⟩ (by show ¬((0 : ℕ) % 4 = 3); omega)) (iblk m c 0 ⟨0, hn⟩)
  | n + 1, hn =>
    if h0 : (n + 1) % 4 = 0 then
      leftFirst c ⟨n + 1, hn⟩ (first_of ⟨n + 1, hn⟩ h0) (notLater_of ⟨n + 1, hn⟩ h0) (notLast_of ⟨n + 1, hn⟩ (by show ¬(n + 1) % 4 = 3; omega)) (iblk m c 0 ⟨n + 1, hn⟩)
    else if h3 : (n + 1) % 4 = 3 then
      leftLast c ⟨n + 1, hn⟩ (notFirst_of ⟨n + 1, hn⟩ h0) (later_of ⟨n + 1, hn⟩ h0) (last_of ⟨n + 1, hn⟩ h3) (iblk m c 0 ⟨n + 1, hn⟩) (stateAt c n (Nat.lt_of_succ_lt hn))
    else
      leftMiddle c ⟨n + 1, hn⟩ (notFirst_of ⟨n + 1, hn⟩ h0) (later_of ⟨n + 1, hn⟩ h0) (notLast_of ⟨n + 1, hn⟩ h3) (iblk m c 0 ⟨n + 1, hn⟩) (stateAt c n (Nat.lt_of_succ_lt hn))

/-- At the first chunk of a sequence the state is what the first-chunk branch leaves. -/
theorem stateAt_first (c : Dev nD) (t : Fin cfg0.N) (h0 : t.val % 4 = 0) (h3 : ¬t.val % 4 = 3) :
    stateAt m c t.val t.isLt = leftFirst c t (first_of t h0) (notLater_of t h0) (notLast_of t h3) (iblk m c 0 t) := by
  obtain ⟨n, hn⟩ := t
  cases n with
  | zero => rfl
  | succ n => exact (dif_pos h0).trans rfl

/-- At a middle chunk, what the middle-chunk branch leaves over the state of the point before. -/
theorem stateAt_middle (c : Dev nD) (t : Fin cfg0.N) (h0 : ¬t.val % 4 = 0) (h3 : ¬t.val % 4 = 3) :
    stateAt m c t.val t.isLt = leftMiddle c t (notFirst_of t h0) (later_of t h0) (notLast_of t h3) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

/-- At the last chunk, what the last-chunk branch leaves over the state of the point before. -/
theorem stateAt_last (c : Dev nD) (t : Fin cfg0.N) (h0 : ¬t.val % 4 = 0) (h3 : t.val % 4 = 3) :
    stateAt m c t.val t.isLt = leftLast c t (notFirst_of t h0) (later_of t h0) (last_of t h3) (iblk m c 0 t)
      (stateAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-! ## The region's invariant and proof data -/

/-- Before position `n`: at the start the scratch buffers at anything; afterwards each at what the point
    before left in it; and the generator register at some state. -/
def PhiS (c : Dev nD) : (n : ℕ) → n ≤ cfg0.N → sProp 𝕄
  | 0, _ => Pipeline.ΦA spec0 c
  | n + 1, hn => iprop(iprop(owns (c : Thread nD τ) scRow fullShare (stateAt m c n hn).2.1 ∗ owns (c : Thread nD τ) scLen fullShare (stateAt m c n hn).2.2.1 ∗ owns (c : Thread nD τ) scSum fullShare (stateAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scRow fullShare (stateAt m c n hn).2.1 ∗ owns (c : Thread nD τ) scLen fullShare (stateAt m c n hn).2.2.1 ∗ owns (c : Thread nD τ) scSum fullShare (stateAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scRow fullShare (stateAt m c (n - 1) (by omega)).2.1 ∗ owns (c : Thread nD τ) scLen fullShare (stateAt m c (n - 1) (by omega)).2.2.1 ∗ owns (c : Thread nD τ) scSum fullShare (stateAt m c (n - 1) (by omega)).2.2.2) ∗ (∃ r, prngReg c r)) := by
  cases n with
  | zero => exact absurd rfl hz
  | succ n => rfl

/-- The proof data of the pipeline on core `c`: the arrays as the region finds them; after the body at point
    `t` the input's buffer at its block and the output's at the state's first component; the invariant above;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the residue of the point modulo four says
    which branch runs; the invariant hands the body the scratch buffers at what the point before left (at
    anything at the very first point) and takes them back at this point's state; off the last chunk the
    output's buffer is handed back untouched, at the last chunk it is covered by the body's store. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (msIn t) fullShare ((dats m 0 c).after 0 t) from by
    unfold Dat.leavesExact; rw [live_in t], after_in]
  by_cases h0 : t.val % 4 = 0
  · have h3 : ¬t.val % 4 = 3 := by omega
    rw [Dat.leavesExact_idle (dats m 0 c) 1 t (idle_out t (notLast_of t h3)) (noFlush_out t (notLast_of t h3))]
    rw [stateAt_first m c t h0 h3]
    unfold leftFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩⟩
      iapply ((runFirst c (grid0.coords t) (msIn t) (hsIn t) (msOut t) (hsOut t) scRow (Memref.isWhole_whole _) scLen (Memref.isWhole_whole _) scSum (Memref.isWhole_whole _) (first_of t h0) (notLater_of t h0) (notLast_of t h3) (iblk m c 0 t)).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_first c t _ _ _ _)
          isplitl [HS1]
          · unfold owns; iexists _; isplitr
            swap; · iexact HS1
            ipureintro; exact View.read_writes_of_cover _ _ _ _ _ (coverLen_first c t _ _ _ _)
          · unfold owns; iexists _; isplitr
            swap; · iexact HS2
            ipureintro; exact View.read_writes_of_cover _ _ _ _ _ (coverSum_first c t _ _ _ _)
        iexact Hg
      isplitl [Ho]; · iexact Ho
      isplitl [H0]; · iexact H0
      iexists _; iexact H1
    · rw [PhiS_castSucc m c t, PhiS_pos m c _ _ hz]
      iintro ⟨⟨⟨HS0, HS1, HS2⟩, Hg⟩, Ho, ⟨%d0, H0⟩, ⟨%d1, H1⟩⟩
      iapply ((runFirst c (grid0.coords t) (msIn t) (hsIn t) (msOut t) (hsOut t) scRow (Memref.isWhole_whole _) scLen (Memref.isWhole_whole _) scSum (Memref.isWhole_whole _) (first_of t h0) (notLater_of t h0) (notLast_of t h3) (iblk m c 0 t)).2.2.2.2 _ Set.univ _)
      isplitl [H0]; · iexact H0
      isplitl [H1]; · iexact H1
      isplitl [HS0]; · iexists _; iexact HS0
      isplitl [HS1]; · iexists _; iexact HS1
      isplitl [HS2]; · iexists _; iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_first c t _ _ _ _)
          isplitl [HS1]
          · unfold owns; iexists _; isplitr
            swap; · iexact HS1
            ipureintro; exact View.read_writes_of_cover _ _ _ _ _ (coverLen_first c t _ _ _ _)
          · unfold owns; iexists _; isplitr
            swap; · iexact HS2
            ipureintro; exact View.read_writes_of_cover _ _ _ _ _ (coverSum_first c t _ _ _ _)
        iexact Hg
      isplitl [Ho]; · iexact Ho
      isplitl [H0]; · iexact H0
      iexists _; iexact H1
  · have hz : t.val ≠ 0 := by omega
    by_cases h3 : t.val % 4 = 3
    · rw [show (dats m 0 c).leavesExact 1 t = owns (c : Thread nD τ) (msOut t) fullShare ((dats m 0 c).after 1 t) from by
        unfold Dat.leavesExact; rw [live_out t (last_of t h3)], after_out]
      rw [stateAt_last m c t h0 h3]
      unfold leftLast; (try dsimp only)
      rw [PhiS_castSucc m c t, PhiS_pos m c _ _ hz]
      iintro ⟨⟨⟨HS0, HS1, HS2⟩, Hg⟩, Ho, ⟨%d0, H0⟩, ⟨%d1, H1⟩⟩
      iapply ((runLast c (grid0.coords t) (msIn t) (hsIn t) (msOut t) (hsOut t) scRow (Memref.isWhole_whole _) scLen (Memref.isWhole_whole _) scSum (Memref.isWhole_whole _) (notFirst_of t h0) (later_of t h0) (last_of t h3) (iblk m c 0 t) _ _ _).2.2.2.2 Set.univ _)
      isplitl [H0]; · iexact H0
      isplitl [H1]; · iexists _; iexact H1
      isplitl [HS0]; · iexact HS0
      isplitl [HS1]; · iexact HS1
      isplitl [HS2]; · iexact HS2
      iintro ⟨H0, ⟨%e1, H1⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_last c t _ _ _ _ _)
          isplitl [HS1]
          · unfold owns; iexists _; isplitr
            swap; · iexact HS1
            ipureintro; exact View.read_writes_of_cover _ _ _ _ _ (coverLen_last c t _ _ _ _ _)
          · unfold owns; iexists _; isplitr
            swap; · iexact HS2
            ipureintro; exact View.read_writes_of_cover _ _ _ _ _ (coverSum_last c t _ _ _ _ _)
        iexact Hg
      isplitl [Ho]; · iexact Ho
      isplitl [H0]; · iexact H0
      unfold owns; iexists _; isplitr
      swap; · iexact H1
      ipureintro; exact View.read_writes_of_cover _ _ _ _ _ (coverOut_last c t _ _ _ _ _)
    · rw [Dat.leavesExact_idle (dats m 0 c) 1 t (idle_out t (notLast_of t h3)) (noFlush_out t (notLast_of t h3))]
      rw [stateAt_middle m c t h0 h3]
      unfold leftMiddle; (try dsimp only)
      rw [PhiS_castSucc m c t, PhiS_pos m c _ _ hz]
      iintro ⟨⟨⟨HS0, HS1, HS2⟩, Hg⟩, Ho, ⟨%d0, H0⟩, ⟨%d1, H1⟩⟩
      iapply ((runMiddle c (grid0.coords t) (msIn t) (hsIn t) (msOut t) (hsOut t) scRow (Memref.isWhole_whole _) scLen (Memref.isWhole_whole _) scSum (Memref.isWhole_whole _) (notFirst_of t h0) (later_of t h0) (notLast_of t h3) (iblk m c 0 t) _ _ _).2.2.2.2 _ Set.univ _)
      isplitl [H0]; · iexact H0
      isplitl [H1]; · iexact H1
      isplitl [HS0]; · iexact HS0
      isplitl [HS1]; · iexact HS1
      isplitl [HS2]; · iexact HS2
      iintro ⟨H0, H1, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverRow_middle c t _ _ _ _ _)
          isplitl [HS1]
          · unfold owns; iexists _; isplitr
            swap; · iexact HS1
            ipureintro; exact View.read_writes_of_cover _ _ _ _ _ (coverLen_middle c t _ _ _ _ _)
          · unfold owns; iexists _; isplitr
            swap; · iexact HS2
            ipureintro; exact View.read_writes_of_cover _ _ _ _ _ (coverSum_middle c t _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's resources back: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of the program terminates, and every final
    state has every array of the pipeline at what the library computes from the proof data and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, faults nowhere and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.Spec.lean ====
import Idealize.ShloMosaic.PureOps.Ideal
import Idealize.ShloMosaic.PureOps.Ideal.Laws

/-! The two programs as plain formulas over the extended reals.

The input is eight sequences of 4096 rows of 2048 entries. Both programs compute, for each
sequence, the sum over the 4095 pairs of neighbouring rows of the cosine of the angle between
them (each row's length clamped from below), add the eight sums, divide by the number of
pairs and subtract the quotient from one. They differ in how a cosine is spelled (normalise
the rows, then multiply; or multiply the rows, then divide by both lengths) and in how the
pairs are grouped (all at once; or four chunks of 1024 rows, the pair that wraps around inside
a chunk subtracted again, the pair across two chunks added). -/

noncomputable section

namespace Cert.Spec

open Idealize.ShloMosaic

/-- The input, by coordinates: sequence, row, entry. -/
abbrev Arr := Fin 8 → Fin 4096 → Fin 2048 → EReal

/-- Every entry is a real number. -/
def IsReal (x : Arr) : Prop := ∀ b r d, ∃ y : ℝ, x b r d = (y : EReal)

/-- The lower clamp of a row's length: the single-precision number nearest 1e-12. -/
def eps : EReal := Ideal.ofBits .f32 0x2B8CBCCC#32

/-- The squared length of a row. -/
def sq (x : Arr) (b : Fin 8) (r : Fin 4096) : EReal := ∑ d : Fin 2048, x b r d * x b r d

/-- The clamped length of a row. -/
def len (x : Arr) (b : Fin 8) (r : Fin 4096) : EReal := max (Ideal.sqrt (sq x b r)) eps

/-! ## The reference's spelling -/

/-- A row divided by its clamped length. -/
def unit (x : Arr) (b : Fin 8) (r : Fin 4096) (d : Fin 2048) : EReal := Ideal.div (x b r d) (len x b r)

/-- The first and the second row of the `i`-th pair of neighbours. -/
def lo (i : Fin 4095) : Fin 4096 := ⟨i.val, by omega⟩
def hi (i : Fin 4095) : Fin 4096 := ⟨1 + i.val, by omega⟩

/-- The cosine of the `i`-th pair: the product of the two normalised rows. -/
def cosR (x : Arr) (b : Fin 8) (i : Fin 4095) : EReal := ∑ d : Fin 2048, unit x b (lo i) d * unit x b (hi i) d

/-- The sum of all cosines. -/
def totalR (x : Arr) : EReal := ∑ b : Fin 8, ∑ i : Fin 4095, cosR x b i

/-! ## The kernel's spelling -/

/-- The product of two rows. -/
def dot (x : Arr) (b : Fin 8) (r r' : Fin 4096) : EReal := ∑ d : Fin 2048, x b r d * x b r' d

/-- The cosine of two rows: their product over the product of their clamped lengths. -/
def cosK (x : Arr) (b : Fin 8) (r r' : Fin 4096) : EReal := Ideal.div (dot x b r r') (len x b r * len x b r')

/-- Row `i` of chunk `c`. -/
def row (c : Fin 4) (i : Fin 1024) : Fin 4096 := ⟨1024 * c.val + i.val, by omega⟩

/-- The next row inside a chunk, the last one wrapping around to the first. -/
def next (i : Fin 1024) : Fin 1024 := ⟨(i.val + 1) % 1024, Nat.mod_lt _ (by decide)⟩

/-- What a chunk contributes by itself: every row against the next one of the chunk, the pair
    that wraps around taken out again. -/
def within (x : Arr) (b : Fin 8) (c : Fin 4) : EReal :=
  (∑ i : Fin 1024, cosK x b (row c i) (row c (next i))) - cosK x b (row c 1023) (row c 0)

/-- The running sum of a sequence after chunk `c`: a chunk after the first adds first the pair
    across the chunk boundary, then its own contribution. -/
def acc (x : Arr) (b : Fin 8) : (c : ℕ) → c < 4 → EReal
  | 0, h => within x b ⟨0, h⟩
  | c + 1, h => (acc x b c (by omega) + cosK x b (row ⟨c, by omega⟩ 1023) (row ⟨c + 1, h⟩ 0)) + within x b ⟨c + 1, h⟩

/-- The sum over the sequences of their final running sums. -/
def totalK (x : Arr) : EReal := ∑ b : Fin 8, acc x b 3 (by decide)

/-! ## The common ending -/

/-- One minus the mean: the sum over the 8 · 4095 = 32760 pairs divided by their number. -/
def tail (s : EReal) : EReal := Ideal.ofBits .f32 0x3F800000#32 - Ideal.div s (Ideal.ofBits .f32 0x46FFF000#32)

end Cert.Spec

end
-- ==== Proof.SpecArr.lean ====
import proofs.«130767_j40424232190289_2_alg».proof.Proof.Spec
import Idealize.ShloMosaic.Lib.ValueIdx

/-! The input array of either program, read by coordinates. -/

noncomputable section

namespace Cert.Spec

open Idealize.ShloMosaic

/-- An array of shape 8 × 4096 × 2048 over the extended reals as a function of its three coordinates. -/
def ofArray (a : (⟨3, ![8, 4096, 2048]⟩ : Shape).Idx → EReal) : Arr := fun b r d => a (ValueIdx.ix3 b r d)

end Cert.Spec

end
-- ==== Proof.KBlock.lean ====
import proofs.«130767_j40424232190289_2_alg».proof.Proof.KI.Frame
import proofs.«130767_j40424232190289_2_alg».proof.Proof.SpecArr
import Idealize.ShloMosaic.Lib.Pipeline.Value
import Idealize.ShloMosaic.Lib.ValueIdx

/-! The input window's block at a grid point, read by coordinates.

The grid is 8 sequences by 4 chunks, the chunk the fast coordinate: point `t` is chunk `t % 4` of
sequence `t / 4`. The input window's block there is rows `1024 (t % 4), …, 1024 (t % 4) + 1023` of
sequence `t / 4`: a block's coordinate on an axis is the block index times the block's size plus
the coordinate inside the block, and the block index at `t` is `(t / 4, t % 4, 0)`. -/

set_option maxRecDepth 16384

noncomputable section

namespace Cert.KValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- The input array as the region finds it, by coordinates: sequence, row, entry. -/
def inp (c : Dev nD) : Cert.Spec.Arr := Cert.Spec.ofArray (V (F := Ideal) m c main_arg0)

/-- The grid has 32 points. -/
theorem lt32 (t : Fin cfg0.N) : t.val < 32 := lt_of_lt_of_eq t.isLt (show cfg0.N = 32 from N_0)

/-- The input window's block index at point `t` is `(t / 4, t % 4, 0)`: decided over the 32 points. -/
theorem idx_in : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, win0_0.index t (0 : Fin 3) = t.val / 4 ∧ win0_0.index t (1 : Fin 3) = t.val % 4
    ∧ win0_0.index t (2 : Fin 3) = 0)

/-- The input block at point `t`, at row `r` and entry `d`, is entry `d` of row `r` of chunk `t % 4` of
    sequence `t / 4`: on each axis the array's coordinate is block index × block size + the coordinate
    inside the block, that is `(t / 4) · 1 + 0`, `(t % 4) · 1024 + r`, `0 · 2048 + d`. -/
theorem iblk_apply (c : Dev nD) (t : Fin cfg0.N) (r : Fin 1024) (d : Fin 2048) :
    iblk m c 0 t (ix3 (0 : Fin 1) r d)
      = inp m c ⟨t.val / 4, by have := lt32 t; omega⟩ (Cert.Spec.row ⟨t.val % 4, Nat.mod_lt _ (by decide)⟩ r) d := by
  obtain ⟨e0, e1, e2⟩ := idx_in t
  unfold iblk
  rw [View.read_apply]
  show V m c main_arg0 (((cfg0.win 0).blk t).view.emb (ix3 (0 : Fin 1) r d))
    = V m c main_arg0 (ix3 (⟨t.val / 4, by have := lt32 t; omega⟩ : Fin 8) (Cert.Spec.row ⟨t.val % 4, Nat.mod_lt _ (by decide)⟩ r) d)
  refine congrArg (V m c main_arg0) ?_
  funext a
  apply Fin.ext
  match a with
  | ⟨0, _⟩ =>
    show win0_0.index t (0 : Fin 3) * 1 + 1 * (0 : Fin 1).val = t.val / 4
    rw [e0]; simp
  | ⟨1, _⟩ =>
    show win0_0.index t (1 : Fin 3) * 1024 + 1 * r.val = 1024 * (t.val % 4) + r.val
    rw [e1]; omega
  | ⟨2, _⟩ =>
    show win0_0.index t (2 : Fin 3) * 2048 + 1 * d.val = d.val
    rw [e2]; omega

/-- What is to be known of the state for the final array: at the last chunk of every sequence
    (the points `t` with `t % 4 = 3`) every entry of the output block is the final running sum of
    sequence `t / 4`. -/
def LastOk (c : Dev nD) : Prop :=
  ∀ (t : Fin cfg0.N), t.val % 4 = 3 → ∀ j : S1x8x128.Idx,
    (stateAt m c t.val t.isLt).1 j = Cert.Spec.acc (inp m c) ⟨t.val / 4, by have := lt32 t; omega⟩ 3 (by decide)

end Cert.KValue

end
-- ==== Proof.KFinal.lean ====
import proofs.«130767_j40424232190289_2_alg».proof.Proof.KBlock
import Idealize.ShloMosaic.Lib.Pipeline.Value
import Idealize.ShloMosaic.Lib.Pipeline.Frame
import Idealize.ShloMosaic.Lib.Pipeline.FrameSuffix
import Idealize.ShloMosaic.Lib.StableHlo.Run
import Idealize.ShloMosaic.Lib.ValueIdx
import Idealize.ShloMosaic.Lib.ValueLayout
import Idealize.ShloMosaic.PureOps.Ideal.Laws

/-! From the kernel's run over the grid to its result.

The output array has one 8 × 128 block per sequence, written back once, at the sequence's last chunk
(the points `t` with `t % 4 = 3`), when the body has stored the sequence's final running sum into every
entry of the block. Given that (`LastOk`), the blocks written back cover the array, so after the run
entry `(b, p, q)` of the output array is the final running sum of sequence `b`. The lines after the
region read entry `(b, 0, 0)` of every sequence, add the eight from zero, divide by 32760 and subtract
from one: the common ending applied to the kernel's total. -/

set_option maxRecDepth 16384

noncomputable section

namespace Cert.KValue

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The output window's block index at point `t` is `(t / 4, 0, 0)`: decided over the 32 points. -/
theorem idx_out : ∀ t : Fin cfg0.N, win0_1.index t (0 : Fin 3) = t.val / 4 ∧ win0_1.index t (1 : Fin 3) = 0
    ∧ win0_1.index t (2 : Fin 3) = 0 :=
  (by decide +kernel : ∀ t : Fin grid0.N, win0_1.index t (0 : Fin 3) = t.val / 4 ∧ win0_1.index t (1 : Fin 3) = 0
    ∧ win0_1.index t (2 : Fin 3) = 0)

/-- The output array: every entry of sequence `b`'s 8 × 128 block is the sequence's final running sum. -/
def outArr (c : Dev nD) : S8x8x128.Idx → EReal := fun i => Cert.Spec.acc (inp m c) (i 0) 3 (by decide)

/-- What a point `t` with `t % 4 = 3` writes back is block `t` of the output array: the state's output
    block there is constant at the final running sum of sequence `t / 4`, and block `t` of the array
    lies in sequence `(t / 4) · 1 + 0`. -/
theorem flushed_eq (c : Dev nD) (hlast : LastOk m c) (t : Fin cfg0.N) (hf : (cfg0.win 1).flush t = true) :
    (dats m 0 c).flushed 1 t = ((cfg0.win 1).blk t).view.read (Elt Ideal) (outArr m c) := by
  have h3 : t.val % 4 = 3 := (flush0_1 t).mp hf
  obtain ⟨e0, e1, e2⟩ := idx_out t
  show (cfg0.win 1).cut (grid0.coords t) ((dats m 0 c).after 1 t) = _
  rw [after_out]
  funext j
  rw [View.read_apply]
  show (stateAt m c t.val t.isLt).1 ((cfg0.win 1).xinj (grid0.coords t) j) = outArr m c (((cfg0.win 1).blk t).view.emb j)
  rw [hlast t h3]
  show Cert.Spec.acc (inp m c) _ 3 _ = Cert.Spec.acc (inp m c) ((((cfg0.win 1).blk t).view.emb j) 0) 3 _
  refine congrArg (fun b => Cert.Spec.acc (inp m c) b 3 (by decide)) ?_
  apply Fin.ext
  show t.val / 4 = win0_1.index t (0 : Fin 3) * 1 + 1 * (j 0).val
  have hj : (j 0).val < 1 := (j 0).isLt
  omega

/-- An index of the output array is in point `t`'s block iff each coordinate is in the block's range on its axis. -/
theorem mem_blk_out (t : Fin cfg0.N) (i : S8x8x128.Idx) :
    i ∈ ((cfg0.win 1).blk t).view.set ↔ ∀ a : Fin 3, win0_1.index t a * S1x8x128.size a ≤ (i a).val ∧ (i a).val < win0_1.index t a * S1x8x128.size a + S1x8x128.size a := by
  show i ∈ ((View.whole main_v0).slice (win0_1.rect t)).set ↔ _
  rw [View.set_slice_whole, Rect.mem_set_unit]
  exact Iff.rfl

/-- Every index `(b, p, q)` of the output array is in the block written back at the last chunk of its
    sequence, the point `4 b + 3`. -/
theorem cover_out (i : S8x8x128.Idx) :
    ∃ t : Fin cfg0.N, (cfg0.win 1).flush t = true ∧ i ∈ ((cfg0.win 1).blk t).view.set := by
  have h0 : (i 0).val < 8 := (i 0).isLt
  have h1 : (i 1).val < 8 := (i 1).isLt
  have h2 : (i 2).val < 128 := (i 2).isLt
  have hN : cfg0.N = 32 := N_0
  let t : Fin cfg0.N := ⟨4 * (i 0).val + 3, by rw [hN]; omega⟩
  obtain ⟨e0, e1, e2⟩ := idx_out t
  have ht : t.val = 4 * (i 0).val + 3 := rfl
  refine ⟨t, (flush0_1 t).mpr (by rw [ht]; omega), ?_⟩
  rw [mem_blk_out]
  intro a
  match a with
  | ⟨0, _⟩ => show win0_1.index t (0 : Fin 3) * 1 ≤ (i 0).val ∧ (i 0).val < win0_1.index t (0 : Fin 3) * 1 + 1; rw [e0, ht]; omega
  | ⟨1, _⟩ => show win0_1.index t (1 : Fin 3) * 8 ≤ (i 1).val ∧ (i 1).val < win0_1.index t (1 : Fin 3) * 8 + 8; rw [e1]; omega
  | ⟨2, _⟩ => show win0_1.index t (2 : Fin 3) * 128 ≤ (i 2).val ∧ (i 2).val < win0_1.index t (2 : Fin 3) * 128 + 128; rw [e2]; omega

/-- The output array after the run: the blocks written back at the last chunks cover it, and each is
    the constant block of its sequence's final running sum. -/
theorem out_final (c : Dev nD) (hlast : LastOk m c) : (dats m 0 c).arrAt 1 cfg0.N = outArr m c :=
  (dats m 0 c).arrAt_eq_of_cover 1 (outArr m c) (flushed_eq m c hlast) cover_out

/-- The host lines after the region as one function of the output array: entry `(b, 0, 0)` of each
    sequence's block, the eight of them added from zero, the sum divided by 32760 and the quotient
    subtracted from one. -/
def hostTail (A : S8x8x128.Idx → EReal) : S_.Idx → EReal :=
  subf (F := Ideal) (constant S_ .f32 0x3F800000#32)
    (Host.divf (Host.reduceAdd (shapeCast S8 (extractStridedSlice S8x1x1 ![0, 0, 0] A slices_S8x8x128_S8x1x1_0_0_0) shapeCasts_S8x1x1_S8)
      (constant S_ .f32 0x00000000#32) reducesTo_S8_S_d0 h_S_) (constant S_ .f32 0x46FFF000#32))

/-- A rank-one index of extent 8 is its one coordinate. -/
def idxEquiv1 : Fin 8 ≃ S8.Idx where
  toFun b := ix1 b
  invFun i := i 0
  left_inv _ := rfl
  right_inv i := (eq_ix1 i).symm

/-- The host lines read at the scalar's one index: the slice `[0:8, 0:1, 0:1]` reshaped to `[8]` reads
    the array at `(b, 0, 0)`; the sum over the one axis from the initial value `0` is `0 + Σ_b`; the
    division and the subtraction are the common ending of both programs. -/
theorem hostTail_apply (A : S8x8x128.Idx → EReal) (x : S_.Idx) :
    hostTail A x = Cert.Spec.tail (∑ b : Fin 8, A (ix3 b (0 : Fin 8) (0 : Fin 128))) := by
  show Ideal.ofBits .f32 0x3F800000#32 - Ideal.div (Ideal.hostReduceAdd reducesTo_S8_S_d0
      (shapeCast S8 (extractStridedSlice S8x1x1 ![0, 0, 0] A slices_S8x8x128_S8x1x1_0_0_0) shapeCasts_S8x1x1_S8)
      (Ideal.ofBits .f32 0x00000000#32) x) (Ideal.ofBits .f32 0x46FFF000#32) = _
  unfold Cert.Spec.tail
  refine congrArg (fun s => Ideal.ofBits .f32 0x3F800000#32 - Ideal.div s (Ideal.ofBits .f32 0x46FFF000#32)) ?_
  rw [Ideal.hostReduceAdd_total reducesTo_S8_S_d0 (fun b => b.elim0), Ideal.ofBits_zero_f32, zero_add,
    ← Equiv.sum_comp idxEquiv1]
  refine Finset.sum_congr rfl fun b _ => ?_
  show shapeCast S8 (extractStridedSlice S8x1x1 ![0, 0, 0] A slices_S8x8x128_S8x1x1_0_0_0) shapeCasts_S8x1x1_S8 (ix1 b) = _
  refine (shapeCast_apply _ shapeCasts_S8x1x1_S8 _ (ix3 b (0 : Fin 1) (0 : Fin 1)) ?_).trans ?_
  · rw [Shape.rowMajor_val_three, Shape.rowMajor_val_one]
    show (b.val * 1 + 0) * 1 + 0 = b.val
    omega
  · exact extractStridedSlice_apply _ A slices_S8x8x128_S8x1x1_0_0_0 _ (ix3 b (0 : Fin 8) (0 : Fin 128)) fun a => by
      match a with
      | ⟨0, _⟩ => show b.val = 0 + b.val; omega
      | ⟨1, _⟩ => rfl
      | ⟨2, _⟩ => rfl

/-- The result buffer after the host lines: they run on the output array the region left. -/
theorem tail_value (c : Dev nD) (hlast : LastOk m c) :
    Pipeline.afterTail₀ cfgs (dats m) 0 (V0 m) [hostOps1] c main_v5 = fun _ => Cert.Spec.tail (Cert.Spec.totalK (inp m c)) := by
  have hv0 : Pipeline.withArrays (cfgs 0).spec c (V0 m c) (fun w => (dats m 0 c).arrAt w (cfgs 0).N) (Proc.devRef .tc main_v0) = outArr m c :=
    (Pipeline.withArrays_arr spec0 launch0.win.arr_inj c _ _ 1).trans (out_final m c hlast)
  unfold Pipeline.afterTail₀
  show StableHlo.after hostOps1 _ (Proc.devRef .tc main_v5) = _
  after_results
  show hostTail (Pipeline.withArrays (cfgs 0).spec c (V0 m c) (fun w => (dats m 0 c).arrAt w (cfgs 0).N) (Proc.devRef .tc main_v0)) = _
  rw [hv0]
  funext x
  rw [hostTail_apply]
  rfl

/-- The result buffer is an unscoped buffer that is no window's array: the region leaves it to the
    host lines after it. -/
theorem v5_rest : main_v5 ∈ Pipeline.restRefs sig (cfgs 0).spec :=
  Pipeline.mem_restRefs_of main_v5 rfl (fun w => by fin_cases w <;> decide)

/-- THE KERNEL'S RESULT: from any memory with zero counters every weakly fair execution of the program
    terminates, with the result buffer at one minus the mean of the eight sequences' final running sums
    (the common ending applied to the kernel's total) and the argument array unchanged — given what the
    state's output block holds at the last chunk of every sequence. -/
theorem run_value (hlast : ∀ c : Dev nD, LastOk m c) :
    θ_run defs (onTc (τ := τ) (main (F := Ideal))) ⟨m, fun _ => 0, ρ⟩ (fun r => ∀ c : Dev nD,
      r.2.mem ((c.tc : Thread nD τ).loc main_v5) = (fun _ => Cert.Spec.tail (Cert.Spec.totalK (inp m c)))
      ∧ r.2.mem ((c.tc : Thread nD τ).loc main_arg0) = m ((c.tc : Thread nD τ).loc main_arg0)) :=
  (θ_run defs _ _).mono (fun r h c =>
      ⟨((h c).2 main_v5 v5_rest).trans (tail_value m c (hlast c)),
       ((h c).1 0).trans (((dats m 0 c).arrAt_in 0 rfl _).trans ((A_eq m c 0).trans (V_main_arg0 m c)))⟩)
    (run_main m ρ)

end Cert.KValue

end
-- ==== Proof.KPay.lean ====
import proofs.«130767_j40424232190289_2_alg».proof.Proof.Gen.KernelIdeal.Skeleton
import proofs.«130767_j40424232190289_2_alg».proof.Proof.SpecArr
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-! The kernel body's arithmetic, read at an index, in the specification's terms.

The body works on one chunk of 1024 rows of one sequence. Its payloads (the pure terms the
generated skeleton names) are read here entry by entry: first the layout operations on arrays
of the body's literal shapes (a column kept as a matrix of width one, a sum along the entries of
a row, a sum down a column, a rotation of the rows by 1023 places, a cut of one row), then each
payload as a formula of the specification. -/

noncomputable section

namespace Cert.KValue

open Cert.KernelIdeal Cert.KernelIdeal.Gen Idealize.ShloMosaic Idealize.ShloMosaic.ValueIdx

/-! ## Layout operations at the body's shapes -/

section Layout
variable {α : Type}

/-- A vector of 1024 entries viewed as a column reads, at row `r`, the vector's entry `r`. -/
theorem col_apply (v : S1024.Idx → α) (h : S1024.ShapeCasts S1024x1) (r : Fin 1024) (z : Fin 1) :
    shapeCast S1024x1 v h (ix2 r z) = v (ix1 r) :=
  shapeCast_apply v h _ _ (by
    have hz : z.val = 0 := by omega
    rw [Shape.rowMajor_val_two, Shape.rowMajor_val_one]
    show r.val = r.val * 1 + z.val
    rw [hz, Nat.mul_one, Nat.add_zero])

/-- A vector of one entry viewed as a 1 × 1 matrix reads that entry. -/
theorem one_apply (v : S1.Idx → α) (h : S1.ShapeCasts S1x1) (p q : Fin 1) :
    shapeCast S1x1 v h (ix2 p q) = v (ix1 (0 : Fin 1)) := by
  have hq : q = 0 := Subsingleton.elim _ _
  subst hq
  exact shapeCast_a_1a_apply v h p 0

/-- The rows rotated by 1023 places: row `r` of the result is row `r + 1` of the operand, the last
    row wrapping around to the first (`r + 1024 - 1023 = r + 1`, modulo 1024). -/
theorem rot_apply {n : Nat} (v : (⟨2, ![1024, n]⟩ : Shape).Idx → α) (h : (⟨2, ![1024, n]⟩ : Shape).Rotates 0 none)
    (r : Fin 1024) (d : Fin n) :
    dynamicRotate 0 1023#32 none v h (ix2 r d) = v (ix2 (Cert.Spec.next r) d) :=
  dynamicRotate_apply 0 1023#32 v h _ _ (fun b => by
    match b with
    | ⟨0, _⟩ =>
      show (r.val + 1) % 1024 = (r.val + 1024 - (1023#32 : BitVec 32).toNat % 1024) % 1024
      have h1 : (1023#32 : BitVec 32).toNat = 1023 := rfl
      rw [h1]
      omega
    | ⟨1, _⟩ => rfl)

end Layout

/-! ## Sums at the body's shapes, over the extended reals -/

/-- The sum along the entries of each row of a 1024 × 2048 matrix, at row `r`. -/
theorem rowsum_apply (v : FVec Ideal S1024x2048 .f32) (h : S1024x2048.Reduces [1] S1024)
    (hφ : FKind.Formats .f32) (hacc : (0x00000000#32 : BitVec 32) = FKind.add.neutral .f32 hφ) (r : Fin 1024) :
    multiReduction .add [1] S1024 v 0x00000000#32 h hφ hacc (ix1 r) = ∑ d : Fin 2048, v (ix2 r d) := by
  refine (Ideal.multiReduction_add_single v _ h hφ hacc (ix1 r)).trans ?_
  refine Finset.sum_congr rfl fun k _ => congrArg v ?_
  exact funext fun a => Fin.ext (by match a with | ⟨0, _⟩ => rfl | ⟨1, _⟩ => rfl)

/-- The sum along the entries of a single row of 2048 entries. -/
theorem rowsum1_apply (v : FVec Ideal S1x2048 .f32) (h : S1x2048.Reduces [1] S1)
    (hφ : FKind.Formats .f32) (hacc : (0x00000000#32 : BitVec 32) = FKind.add.neutral .f32 hφ) (p : Fin 1) :
    multiReduction .add [1] S1 v 0x00000000#32 h hφ hacc (ix1 p) = ∑ d : Fin 2048, v (ix2 p d) := by
  refine (Ideal.multiReduction_add_single v _ h hφ hacc (ix1 p)).trans ?_
  refine Finset.sum_congr rfl fun k _ => congrArg v ?_
  exact funext fun a => Fin.ext (by match a with | ⟨0, _⟩ => rfl | ⟨1, _⟩ => rfl)

/-- The sum down a column of 1024 entries. -/
theorem colsum_apply (v : FVec Ideal S1024x1 .f32) (h : S1024x1.Reduces [0] S1)
    (hφ : FKind.Formats .f32) (hacc : (0x00000000#32 : BitVec 32) = FKind.add.neutral .f32 hφ) (q : Fin 1) :
    multiReduction .add [0] S1 v 0x00000000#32 h hφ hacc (ix1 q) = ∑ r : Fin 1024, v (ix2 r q) := by
  refine (Ideal.multiReduction_add_single v _ h hφ hacc (ix1 q)).trans ?_
  refine Finset.sum_congr rfl fun k _ => congrArg v ?_
  exact funext fun a => Fin.ext (by match a with | ⟨0, _⟩ => rfl | ⟨1, _⟩ => rfl)

/-! ## The payloads

Throughout, `X` is the whole input by coordinates, `b` a sequence, `c` a chunk, and `x0` the block
the body loaded: chunk `c` of sequence `b`, so that its row `r` is row `Cert.Spec.row c r` of the
sequence. -/

/-- The loaded block without its leading unit axis: entry `d` of row `r` of the chunk. -/
theorem pay5 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (r : Fin 1024) (d : Fin 2048) : k0_pay5 x0 (ix2 r d) = X b (Cert.Spec.row c r) d := by
  unfold k0_pay5
  exact (shapeCast_1ab_ab_apply x0 _ r d).trans (hx r d)

/-- The column of row lengths: the square root of the sum of a row's squares. -/
theorem pay6 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (r : Fin 1024) (z : Fin 1) :
    k0_pay6 x0 (ix2 r z) = Ideal.sqrt (Cert.Spec.sq X b (Cert.Spec.row c r)) := by
  unfold k0_pay6
  show Ideal.sqrt (shapeCast S1024x1 _ _ (ix2 r z)) = _
  refine congrArg Ideal.sqrt ((col_apply _ _ r z).trans ((rowsum_apply _ _ _ _ r).trans ?_))
  refine Finset.sum_congr rfl fun d _ => ?_
  show k0_pay5 x0 (ix2 r d) * k0_pay5 x0 (ix2 r d) = _
  rw [pay5 X b c x0 hx r d]

/-- The last row of the chunk, cut out to be carried to the next chunk. -/
theorem pay9 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (d : Fin 2048) : k0_pay9 x0 (ix2 (0 : Fin 1) d) = X b (Cert.Spec.row c 1023) d := by
  unfold k0_pay9
  exact (slice2_axis0_apply 1023 (k0_pay5 x0) _ (0 : Fin 1) d (1023 : Fin 1024) rfl).trans (pay5 X b c x0 hx 1023 d)

/-- A cast of a row to its own shape changes nothing. -/
theorem pay1 {F : FTy → Type} [FloatOps F] (v : FVec F S1x2048 .f32) : k0_pay1 v = v := by
  unfold k0_pay1
  exact shapeCast_self v _

/-- The last row's length, cut out of the column of lengths to be carried to the next chunk. -/
theorem pay2 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d) :
    k0_pay2 (k0_pay6 x0) (ix2 (0 : Fin 1) (0 : Fin 1)) = Ideal.sqrt (Cert.Spec.sq X b (Cert.Spec.row c 1023)) := by
  unfold k0_pay2
  refine (congrFun (shapeCast_self _ _) _).trans ?_
  exact (slice2_axis0_apply 1023 (k0_pay6 x0) _ (0 : Fin 1) (0 : Fin 1) (1023 : Fin 1024) rfl).trans
    (pay6 X b c x0 hx 1023 0)

/-- The running sum is started at zero. -/
theorem pay4 (j : S1x1.Idx) : (k0_pay4 (F := Ideal)) j = 0 := by
  unfold k0_pay4
  refine (congrFun (shapeCast_self _ _) _).trans ?_
  exact Ideal.ofBits_zero_f32

/-- The final running sum, repeated over the whole output block. -/
theorem pay3 {F : FTy → Type} [FloatOps F] (v43 : Vec F S1x1 .f32) (j : S1x8x128.Idx) :
    k0_pay3 v43 j = v43 (ix2 (0 : Fin 1) (0 : Fin 1)) := by
  unfold k0_pay3
  rw [eq_ix3 j]
  refine (shapeCast_ab_1ab_apply _ _ (j 0) (j 1) (j 2)).trans ?_
  refine (broadcastTo_apply _ _ _ (ix2 (0 : Fin 1) (0 : Fin 1)) fun a => ?_).trans ?_
  · match a with
    | ⟨0, _⟩ => exact (if_pos rfl).symm
    | ⟨1, _⟩ => exact (if_pos rfl).symm
  · exact congrFun (shapeCast_self v43 _) _

/-! ## The chunk's own contribution

The body's column of cosines: for each row of the chunk, the product of the row with the next row
of the chunk (the rows rotated by one place, the last wrapping around to the first) over the
product of the two clamped lengths. The payload adds to the running sum the sum of this column
less its last entry, the pair that wrapped around. -/

/-- The body's column of cosines (its value `%19`). -/
def cosCol (x0 : Vec Ideal S1x1024x2048 .f32) : FVec Ideal S1024x1 .f32 :=
  divf
    (shapeCast S1024x1
      (multiReduction .add [1] S1024
        (mulf (k0_pay5 x0) (dynamicRotate 0 1023#32 none (k0_pay5 x0) rotates_S1024x2048_d0))
        0x00000000#32 reduces_S1024x2048_S1024 (.inl rfl) rfl)
      shapeCasts_S1024_S1024x1)
    (mulf (maximumf (k0_pay6 x0) (broadcast S1024x1 (Scalar.ofBits .f32 0x2B8CBCCC#32)))
      (maximumf (dynamicRotate 0 1023#32 none (k0_pay6 x0) rotates_S1024x1_d0)
        (broadcast S1024x1 (Scalar.ofBits .f32 0x2B8CBCCC#32))))

/-- The payload in terms of the column of cosines: the running sum plus the column's sum less its
    last entry. -/
theorem pay8_shape (x0 : Vec Ideal S1x1024x2048 .f32) (v27 : Vec Ideal S1x1 .f32) :
    k0_pay8 x0 v27 = shapeCast S1x1 (addf v27 (subf
      (shapeCast S1x1 (multiReduction .add [0] S1 (cosCol x0) 0x00000000#32 reduces_S1024x1_S1 (.inl rfl) rfl)
        shapeCasts_S1_S1x1)
      (extractStridedSlice S1x1 ![1023, 0] (cosCol x0) slices_S1024x1_o1023_0_S1x1))) shapeCasts_S1x1_S1x1 := rfl

/-- Entry `i` of the column of cosines is the cosine of row `i` of the chunk and the next row of
    the chunk. -/
theorem cosCol_apply (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (i : Fin 1024) (z : Fin 1) :
    cosCol x0 (ix2 i z) = Cert.Spec.cosK X b (Cert.Spec.row c i) (Cert.Spec.row c (Cert.Spec.next i)) := by
  unfold cosCol Cert.Spec.cosK
  show Ideal.div (shapeCast S1024x1 _ _ (ix2 i z))
      (max (k0_pay6 x0 (ix2 i z)) (Ideal.ofBits .f32 0x2B8CBCCC#32)
        * max (dynamicRotate 0 1023#32 none (k0_pay6 x0) _ (ix2 i z)) (Ideal.ofBits .f32 0x2B8CBCCC#32)) = _
  refine congrArg₂ Ideal.div ?_ (congrArg₂ (· * ·) ?_ ?_)
  · refine (col_apply _ _ i z).trans ((rowsum_apply _ _ _ _ i).trans (Finset.sum_congr rfl fun d _ => ?_))
    show k0_pay5 x0 (ix2 i d) * dynamicRotate 0 1023#32 none (k0_pay5 x0) _ (ix2 i d) = _
    rw [rot_apply, pay5 X b c x0 hx, pay5 X b c x0 hx]
  · rw [pay6 X b c x0 hx]
    rfl
  · rw [rot_apply, pay6 X b c x0 hx]
    rfl

/-- The row after the last one of a chunk, wrapping around, is the first. -/
theorem next_last : Cert.Spec.next (1023 : Fin 1024) = 0 := rfl

/-- The running sum after the chunk: what it held plus the chunk's own contribution. -/
theorem pay8 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (v27 : Vec Ideal S1x1 .f32) :
    k0_pay8 x0 v27 (ix2 (0 : Fin 1) (0 : Fin 1)) = v27 (ix2 (0 : Fin 1) (0 : Fin 1)) + Cert.Spec.within X b c := by
  rw [pay8_shape]
  refine (congrFun (shapeCast_self _ _) _).trans ?_
  unfold Cert.Spec.within
  refine congrArg₂ (· + ·) rfl (congrArg₂ (· - ·) ?_ ?_)
  · refine (one_apply _ _ 0 0).trans ((colsum_apply _ _ _ _ 0).trans (Finset.sum_congr rfl fun i _ => ?_))
    exact cosCol_apply X b c x0 hx i 0
  · refine (slice2_axis0_apply 1023 (cosCol x0) _ (0 : Fin 1) (0 : Fin 1) (1023 : Fin 1024) rfl).trans ?_
    rw [cosCol_apply X b c x0 hx, next_last]

/-! ## The pair across the chunk boundary

A chunk after the first reads the carried last row of the previous chunk and its length, and adds
to the running sum the cosine of that row and the chunk's first row. -/

/-- The running sum after the boundary pair: what it held plus the cosine of the carried row `r'`
    and the first row of the chunk. -/
theorem pay7 (X : Cert.Spec.Arr) (b : Fin 8) (c : Fin 4) (x0 : Vec Ideal S1x1024x2048 .f32)
    (hx : ∀ (r : Fin 1024) (d : Fin 2048), x0 (ix3 (0 : Fin 1) r d) = X b (Cert.Spec.row c r) d)
    (r' : Fin 4096) (v43 : Vec Ideal S1x2048 .f32) (v44 v56 : Vec Ideal S1x1 .f32)
    (hrow : ∀ d : Fin 2048, v43 (ix2 (0 : Fin 1) d) = X b r' d)
    (hlen : v44 (ix2 (0 : Fin 1) (0 : Fin 1)) = Ideal.sqrt (Cert.Spec.sq X b r')) :
    k0_pay7 x0 v43 v44 v56 (ix2 (0 : Fin 1) (0 : Fin 1))
      = v56 (ix2 (0 : Fin 1) (0 : Fin 1)) + Cert.Spec.cosK X b r' (Cert.Spec.row c 0) := by
  unfold k0_pay7
  refine (congrFun (shapeCast_self _ _) _).trans ?_
  unfold Cert.Spec.cosK
  show v56 (ix2 (0 : Fin 1) (0 : Fin 1)) + Ideal.div (shapeCast S1x1 _ _ (ix2 (0 : Fin 1) (0 : Fin 1)))
      (max (v44 (ix2 (0 : Fin 1) (0 : Fin 1))) (Ideal.ofBits .f32 0x2B8CBCCC#32)
        * max (extractStridedSlice S1x1 ![0, 0] (k0_pay6 x0) _ (ix2 (0 : Fin 1) (0 : Fin 1)))
            (Ideal.ofBits .f32 0x2B8CBCCC#32)) = _
  refine congrArg₂ (· + ·) rfl (congrArg₂ Ideal.div ?_ (congrArg₂ (· * ·) ?_ ?_))
  · refine (one_apply _ _ 0 0).trans ((rowsum1_apply _ _ _ _ 0).trans (Finset.sum_congr rfl fun d _ => ?_))
    show v43 (ix2 (0 : Fin 1) d) * extractStridedSlice S1x2048 ![0, 0] (k0_pay5 x0) _ (ix2 (0 : Fin 1) d) = _
    rw [hrow, slice2_axis0_apply 0 (k0_pay5 x0) _ (0 : Fin 1) d (0 : Fin 1024) rfl, pay5 X b c x0 hx]
  · rw [hlen]
    rfl
  · rw [slice2_axis0_apply 0 (k0_pay6 x0) _ (0 : Fin 1) (0 : Fin 1) (0 : Fin 1024) rfl, pay6 X b c x0 hx]
    rfl

end Cert.KValue

end
-- ==== Proof.KPiece.lean ====
import proofs.«130767_j40424232190289_2_alg».proof.Proof.KI.Frame
import Idealize.ShloMosaic.Lib.Pipeline.Value

/-! What each branch of the body leaves in the scratch buffers and in the output block, as the body's
arithmetic applied to the input block and to what the point before left: the stores read back. -/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (t : Fin cfg0.N)

/-- The zero offsets of a rank-2 and of a rank-3 whole-buffer access. -/
theorem hz2 : (![0, 0] : Fin 2 → Nat) = fun _ => 0 := by funext a; fin_cases a <;> rfl
theorem hz3 : (![0, 0, 0] : Fin 3 → Nat) = fun _ => 0 := by funext a; fin_cases a <;> rfl

/-- A whole-buffer load after a whole-buffer store reads the store's payload, whatever was stored before. -/
theorem readCov_cons_unit_zero {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The first chunk of a sequence -/

/-- The row buffer ends at the block's last row. -/
theorem leftFirst_row (h1 : isFirst (grid0.coords t)) (h2 : ¬isLater (grid0.coords t)) (h3 : ¬isLast (grid0.coords t)) (x0 : Vec F S1x1024x2048 .f32) : (leftFirst c t h1 h2 h3 x0).2.1 = k0_pay1 (k0_pay9 x0) := by
  unfold leftFirst; dsimp only
  rw [View.read_writes_eq_canon _ _ _ (coverRow_first c t h1 h2 h3 x0)]
  unfold runFirst; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

/-- The length buffer ends at that row's length. -/
theorem leftFirst_len (h1 : isFirst (grid0.coords t)) (h2 : ¬isLater (grid0.coords t)) (h3 : ¬isLast (grid0.coords t)) (x0 : Vec F S1x1024x2048 .f32) : (leftFirst c t h1 h2 h3 x0).2.2.1 = k0_pay2 (k0_pay6 x0) := by
  unfold leftFirst; dsimp only
  rw [View.read_writes_eq_canon _ _ _ (coverLen_first c t h1 h2 h3 x0)]
  unfold runFirst; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

/-- The running sum ends at zero plus the chunk's own contribution. -/
theorem leftFirst_sum (h1 : isFirst (grid0.coords t)) (h2 : ¬isLater (grid0.coords t)) (h3 : ¬isLast (grid0.coords t)) (x0 : Vec F S1x1024x2048 .f32) : (leftFirst c t h1 h2 h3 x0).2.2.2 = k0_pay8 x0 (k0_pay4) := by
  unfold leftFirst; dsimp only
  rw [View.read_writes_eq_canon _ _ _ (coverSum_first c t h1 h2 h3 x0)]
  unfold runFirst; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]
  rw [readCov_cons_unit_zero (S := S1x1) _ hz2]

/-! ## A middle chunk -/

theorem leftMiddle_row (h1 : ¬isFirst (grid0.coords t)) (h2 : isLater (grid0.coords t)) (h3 : ¬isLast (grid0.coords t)) (x0 : Vec F S1x1024x2048 .f32) (s : St F) : (leftMiddle c t h1 h2 h3 x0 s).2.1 = k0_pay1 (k0_pay9 x0) := by
  unfold leftMiddle; dsimp only
  rw [View.read_writes_eq_canon _ _ _ (coverRow_middle c t h1 h2 h3 x0 s)]
  unfold runMiddle; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

theorem leftMiddle_len (h1 : ¬isFirst (grid0.coords t)) (h2 : isLater (grid0.coords t)) (h3 : ¬isLast (grid0.coords t)) (x0 : Vec F S1x1024x2048 .f32) (s : St F) : (leftMiddle c t h1 h2 h3 x0 s).2.2.1 = k0_pay2 (k0_pay6 x0) := by
  unfold leftMiddle; dsimp only
  rw [View.read_writes_eq_canon _ _ _ (coverLen_middle c t h1 h2 h3 x0 s)]
  unfold runMiddle; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

/-- The running sum ends at what the chunk before left, plus the pair across the boundary (from the row and
    length the chunk before left), plus the chunk's own contribution. -/
theorem leftMiddle_sum (h1 : ¬isFirst (grid0.coords t)) (h2 : isLater (grid0.coords t)) (h3 : ¬isLast (grid0.coords t)) (x0 : Vec F S1x1024x2048 .f32) (s : St F) : (leftMiddle c t h1 h2 h3 x0 s).2.2.2 = k0_pay8 x0 (k0_pay7 x0 s.2.1 s.2.2.1 s.2.2.2) := by
  unfold leftMiddle; dsimp only
  rw [View.read_writes_eq_canon _ _ _ (coverSum_middle c t h1 h2 h3 x0 s)]
  unfold runMiddle; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]
  rw [readCov_cons_unit_zero (S := S1x1) _ hz2]

/-! ## The last chunk -/

theorem leftLast_row (h1 : ¬isFirst (grid0.coords t)) (h2 : isLater (grid0.coords t)) (h3 : isLast (grid0.coords t)) (x0 : Vec F S1x1024x2048 .f32) (s : St F) : (leftLast c t h1 h2 h3 x0 s).2.1 = k0_pay1 (k0_pay9 x0) := by
  unfold leftLast; dsimp only
  rw [View.read_writes_eq_canon _ _ _ (coverRow_last c t h1 h2 h3 x0 s)]
  unfold runLast; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

theorem leftLast_len (h1 : ¬isFirst (grid0.coords t)) (h2 : isLater (grid0.coords t)) (h3 : isLast (grid0.coords t)) (x0 : Vec F S1x1024x2048 .f32) (s : St F) : (leftLast c t h1 h2 h3 x0 s).2.2.1 = k0_pay2 (k0_pay6 x0) := by
  unfold leftLast; dsimp only
  rw [View.read_writes_eq_canon _ _ _ (coverLen_last c t h1 h2 h3 x0 s)]
  unfold runLast; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]

theorem leftLast_sum (h1 : ¬isFirst (grid0.coords t)) (h2 : isLater (grid0.coords t)) (h3 : isLast (grid0.coords t)) (x0 : Vec F S1x1024x2048 .f32) (s : St F) : (leftLast c t h1 h2 h3 x0 s).2.2.2 = k0_pay8 x0 (k0_pay7 x0 s.2.1 s.2.2.1 s.2.2.2) := by
  unfold leftLast; dsimp only
  rw [View.read_writes_eq_canon _ _ _ (coverSum_last c t h1 h2 h3 x0 s)]
  unfold runLast; dsimp only
  sl_unfold_words
  rw [View.canon_cons_unit_zero hz2]
  simp only [View.readAt_eq_ld, (hsIn t).read_unread, (Memref.isWhole_whole _).read_unread, View.ld_unit_zero (S := S1x1024x2048) hz3, View.ld_unit_zero (S := S1x2048) hz2, View.ld_unit_zero (S := S1x1) hz2]
  rw [readCov_cons_unit_zero (S := S1x1) _ hz2]

/-- The output block ends at the final running sum spread over the block. -/
theorem leftLast_out (h1 : ¬isFirst (grid0.coords t)) (h2 : isLater (grid0.coords t)) (h3 : isLast (grid0.coords t)) (x0 : Vec F S1x1024x2048 .f32) (s : St F) : (leftLast c t h1 h2 h3 x0 s).1 = k0_pay3 (k0_pay8 x0 (k0_pay7 x0 s.2.1 s.2.2.1 s.2.2.2)) := by
  unfold leftLast; dsimp only
  rw [View.read_writes_eq_canon _ _ _ (coverOut_last c t h1 h2 h3 x0 s)]
  unfold runLast; dsimp only
  sl_unfold_words
  rw [View.canon_cons_unit_zero hz3]
  simp only [View.readAt_eq_ld, (hsIn t).read_unread, (Memref.isWhole_whole _).read_unread, View.ld_unit_zero (S := S1x1024x2048) hz3, View.ld_unit_zero (S := S1x2048) hz2, View.ld_unit_zero (S := S1x1) hz2]
  rw [readCov_cons_unit_zero (S := S1x1) _ hz2, readCov_cons_unit_zero (S := S1x1) _ hz2]

end Cert.KernelIdeal.Body

end
-- ==== Proof.KState.lean ====
import proofs.«130767_j40424232190289_2_alg».proof.Proof.KPay
import proofs.«130767_j40424232190289_2_alg».proof.Proof.KPiece
import proofs.«130767_j40424232190289_2_alg».proof.Proof.KI.Frame
import proofs.«130767_j40424232190289_2_alg».proof.Proof.KBlock

/-! The state after every grid point, by induction on the point.

The grid runs through the sequences one after the other and through the four chunks of a sequence in
order: point `n` is chunk `n % 4` of sequence `n / 4`. After point `n` the row buffer holds the last
row of that chunk, the length buffer that row's length, and the sum buffer the running sum
`Cert.Spec.acc` of the sequence after that chunk. At the last chunk of a sequence the output block
holds the final running sum at every entry. -/

set_option maxRecDepth 16384

noncomputable section

namespace Cert.KValue

open Cert.KernelIdeal Cert.KernelIdeal.Gen Cert.KernelIdeal.Body Idealize.ShloMosaic Idealize.ShloMosaic.ValueIdx

/-! ## The running sum's two equations -/

/-- After the first chunk the running sum is that chunk's own contribution. -/
theorem acc_zero (x : Cert.Spec.Arr) (b : Fin 8) (h : 0 < 4) :
    Cert.Spec.acc x b 0 h = Cert.Spec.within x b ⟨0, h⟩ := rfl

/-- A later chunk adds the pair across the boundary, then its own contribution. -/
theorem acc_succ (x : Cert.Spec.Arr) (b : Fin 8) (k : ℕ) (h : k + 1 < 4) :
    Cert.Spec.acc x b (k + 1) h
      = (Cert.Spec.acc x b k (by omega) + Cert.Spec.cosK x b (Cert.Spec.row ⟨k, by omega⟩ 1023) (Cert.Spec.row ⟨k + 1, h⟩ 0))
        + Cert.Spec.within x b ⟨k + 1, h⟩ := rfl

/-- The running sum depends on the chunk's number only. -/
theorem acc_congr (x : Cert.Spec.Arr) (b : Fin 8) {k k' : ℕ} (e : k = k') (h : k < 4) (h' : k' < 4) :
    Cert.Spec.acc x b k h = Cert.Spec.acc x b k' h' := by
  subst e
  rfl

/-! ## One point, over variables -/

/-- The sum buffer after the first chunk of a sequence: zero plus the chunk's own contribution. -/
theorem sum_first (X : Cert.Spec.Arr) (b : Fin 8) (c : Fin 4) (h0 : c.val = 0) (x0 : Vec Ideal S1x1024x2048 .f32)
    (hx : ∀ (r : Fin 1024) (d : Fin 2048), x0 (ix3 (0 : Fin 1) r d) = X b (Cert.Spec.row c r) d) :
    k0_pay8 x0 (k0_pay4 (F := Ideal)) (ix2 (0 : Fin 1) (0 : Fin 1)) = Cert.Spec.acc X b c.val c.isLt := by
  rw [pay8 X b c x0 hx, pay4, zero_add]
  obtain ⟨k, hk⟩ := c
  change k = 0 at h0
  subst h0
  rfl

/-- The sum buffer after a later chunk `c = k + 1` of a sequence, from what the chunk `k` before left
    in the three buffers: the running sum after `k`, plus the pair across the boundary, plus the
    chunk's own contribution. -/
theorem sum_later (X : Cert.Spec.Arr) (b b' : Fin 8) (hb : b' = b) (c : Fin 4) (k : ℕ) (hk : k < 4) (e : c.val = k + 1)
    (x0 : Vec Ideal S1x1024x2048 .f32)
    (hx : ∀ (r : Fin 1024) (d : Fin 2048), x0 (ix3 (0 : Fin 1) r d) = X b (Cert.Spec.row c r) d)
    (s : St Ideal)
    (hrow : ∀ d : Fin 2048, s.2.1 (ix2 (0 : Fin 1) d) = X b' (Cert.Spec.row ⟨k, hk⟩ 1023) d)
    (hlen : s.2.2.1 (ix2 (0 : Fin 1) (0 : Fin 1)) = Ideal.sqrt (Cert.Spec.sq X b' (Cert.Spec.row ⟨k, hk⟩ 1023)))
    (hsum : s.2.2.2 (ix2 (0 : Fin 1) (0 : Fin 1)) = Cert.Spec.acc X b' k hk) :
    k0_pay8 x0 (k0_pay7 x0 s.2.1 s.2.2.1 s.2.2.2) (ix2 (0 : Fin 1) (0 : Fin 1)) = Cert.Spec.acc X b c.val c.isLt := by
  subst hb
  obtain ⟨cv, hc⟩ := c
  change cv = k + 1 at e
  subst e
  rw [pay8 X b' ⟨k + 1, hc⟩ x0 hx,
    pay7 X b' ⟨k + 1, hc⟩ x0 hx (Cert.Spec.row ⟨k, hk⟩ 1023) s.2.1 s.2.2.1 s.2.2.2 hrow hlen, hsum]
  rfl

/-! ## Every point -/

variable (m : (ℓ : Loc nD τ sig) → Buf (Elt Ideal) ℓ)

/-- A point's sequence is one of the eight. -/
theorem seq_lt (n : ℕ) (hn : n < cfg0.N) : n / 4 < 8 := by
  have h : n < 32 := lt32 ⟨n, hn⟩
  omega

/-- What the three scratch buffers hold after point `n`: the last row of chunk `n % 4` of sequence
    `n / 4`, that row's length, and the sequence's running sum after that chunk. -/
structure Good (c : Dev nD) (n : ℕ) (hn : n < cfg0.N) (s : St Ideal) : Prop where
  row : ∀ d : Fin 2048, s.2.1 (ix2 (0 : Fin 1) d)
    = inp m c ⟨n / 4, seq_lt n hn⟩ (Cert.Spec.row ⟨n % 4, Nat.mod_lt _ (by decide)⟩ 1023) d
  len : s.2.2.1 (ix2 (0 : Fin 1) (0 : Fin 1))
    = Ideal.sqrt (Cert.Spec.sq (inp m c) ⟨n / 4, seq_lt n hn⟩ (Cert.Spec.row ⟨n % 4, Nat.mod_lt _ (by decide)⟩ 1023))
  sum : s.2.2.2 (ix2 (0 : Fin 1) (0 : Fin 1))
    = Cert.Spec.acc (inp m c) ⟨n / 4, seq_lt n hn⟩ (n % 4) (Nat.mod_lt _ (by decide))

/-- The row buffer after any chunk: the chunk's last row. -/
theorem row_any (c : Dev nD) (t : Fin cfg0.N) (d : Fin 2048) :
    k0_pay1 (k0_pay9 (iblk m c 0 t)) (ix2 (0 : Fin 1) d)
      = inp m c ⟨t.val / 4, by have := lt32 t; omega⟩ (Cert.Spec.row ⟨t.val % 4, Nat.mod_lt _ (by decide)⟩ 1023) d := by
  rw [pay1]
  exact pay9 (inp m c) ⟨t.val / 4, by have := lt32 t; omega⟩ ⟨t.val % 4, Nat.mod_lt _ (by decide)⟩ (iblk m c 0 t)
    (fun r d => iblk_apply m c t r d) d

/-- The length buffer after any chunk: the length of the chunk's last row. -/
theorem len_any (c : Dev nD) (t : Fin cfg0.N) :
    k0_pay2 (k0_pay6 (iblk m c 0 t)) (ix2 (0 : Fin 1) (0 : Fin 1))
      = Ideal.sqrt (Cert.Spec.sq (inp m c) ⟨t.val / 4, by have := lt32 t; omega⟩
          (Cert.Spec.row ⟨t.val % 4, Nat.mod_lt _ (by decide)⟩ 1023)) :=
  pay2 (inp m c) ⟨t.val / 4, by have := lt32 t; omega⟩ ⟨t.val % 4, Nat.mod_lt _ (by decide)⟩ (iblk m c 0 t)
    (fun r d => iblk_apply m c t r d)

/-- The sum buffer after a later chunk, from the state the point before left. -/
theorem sum_any (c : Dev nD) (n : ℕ) (hn : n + 1 < cfg0.N) (h0 : ¬(n + 1) % 4 = 0) (s : St Ideal)
    (hs : Good m c n (Nat.lt_of_succ_lt hn) s) :
    k0_pay8 (iblk m c 0 ⟨n + 1, hn⟩) (k0_pay7 (iblk m c 0 ⟨n + 1, hn⟩) s.2.1 s.2.2.1 s.2.2.2) (ix2 (0 : Fin 1) (0 : Fin 1))
      = Cert.Spec.acc (inp m c) ⟨(n + 1) / 4, seq_lt (n + 1) hn⟩ ((n + 1) % 4) (Nat.mod_lt _ (by decide)) :=
  sum_later (inp m c) ⟨(n + 1) / 4, seq_lt (n + 1) hn⟩ ⟨n / 4, seq_lt n (Nat.lt_of_succ_lt hn)⟩
    (Fin.ext (by show n / 4 = (n + 1) / 4; omega)) ⟨(n + 1) % 4, Nat.mod_lt _ (by decide)⟩ (n % 4) (Nat.mod_lt _ (by decide))
    (by show (n + 1) % 4 = n % 4 + 1; omega) (iblk m c 0 ⟨n + 1, hn⟩) (fun r d => iblk_apply m c ⟨n + 1, hn⟩ r d) s
    hs.row hs.len hs.sum

/-- After every point the three scratch buffers hold what `Good` says. -/
theorem good (c : Dev nD) : ∀ (n : ℕ) (hn : n < cfg0.N), Good m c n hn (stateAt m c n hn) := by
  intro n
  induction n with
  | zero =>
    intro hn
    have e : stateAt m c 0 hn = leftFirst c ⟨0, hn⟩ (first_of ⟨0, hn⟩ (Nat.zero_mod _)) (notLater_of ⟨0, hn⟩ (Nat.zero_mod _))
        (notLast_of ⟨0, hn⟩ (by show ¬((0 : ℕ) % 4 = 3); omega)) (iblk m c 0 ⟨0, hn⟩) :=
      stateAt_first m c ⟨0, hn⟩ (Nat.zero_mod _) (by show ¬((0 : ℕ) % 4 = 3); omega)
    rw [e]
    refine ⟨fun d => ?_, ?_, ?_⟩
    · rw [leftFirst_row]; exact row_any m c ⟨0, hn⟩ d
    · rw [leftFirst_len]; exact len_any m c ⟨0, hn⟩
    · rw [leftFirst_sum]
      exact sum_first (inp m c) _ ⟨0 % 4, Nat.mod_lt _ (by decide)⟩ rfl (iblk m c 0 ⟨0, hn⟩) (fun r d => iblk_apply m c ⟨0, hn⟩ r d)
  | succ n ih =>
    intro hn
    have hs := ih (Nat.lt_of_succ_lt hn)
    by_cases h0 : (n + 1) % 4 = 0
    · have h3 : ¬(n + 1) % 4 = 3 := by omega
      have e : stateAt m c (n + 1) hn = leftFirst c ⟨n + 1, hn⟩ (first_of ⟨n + 1, hn⟩ h0) (notLater_of ⟨n + 1, hn⟩ h0)
          (notLast_of ⟨n + 1, hn⟩ h3) (iblk m c 0 ⟨n + 1, hn⟩) := stateAt_first m c ⟨n + 1, hn⟩ h0 h3
      rw [e]
      refine ⟨fun d => ?_, ?_, ?_⟩
      · rw [leftFirst_row]; exact row_any m c ⟨n + 1, hn⟩ d
      · rw [leftFirst_len]; exact len_any m c ⟨n + 1, hn⟩
      · rw [leftFirst_sum]
        exact sum_first (inp m c) _ ⟨(n + 1) % 4, Nat.mod_lt _ (by decide)⟩ h0 (iblk m c 0 ⟨n + 1, hn⟩)
          (fun r d => iblk_apply m c ⟨n + 1, hn⟩ r d)
    · by_cases h3 : (n + 1) % 4 = 3
      · have e : stateAt m c (n + 1) hn = leftLast c ⟨n + 1, hn⟩ (notFirst_of ⟨n + 1, hn⟩ h0) (later_of ⟨n + 1, hn⟩ h0)
            (last_of ⟨n + 1, hn⟩ h3) (iblk m c 0 ⟨n + 1, hn⟩) (stateAt m c n (Nat.lt_of_succ_lt hn)) :=
          stateAt_last m c ⟨n + 1, hn⟩ h0 h3
        rw [e]
        refine ⟨fun d => ?_, ?_, ?_⟩
        · rw [leftLast_row]; exact row_any m c ⟨n + 1, hn⟩ d
        · rw [leftLast_len]; exact len_any m c ⟨n + 1, hn⟩
        · rw [leftLast_sum]; exact sum_any m c n hn h0 _ hs
      · have e : stateAt m c (n + 1) hn = leftMiddle c ⟨n + 1, hn⟩ (notFirst_of ⟨n + 1, hn⟩ h0) (later_of ⟨n + 1, hn⟩ h0)
            (notLast_of ⟨n + 1, hn⟩ h3) (iblk m c 0 ⟨n + 1, hn⟩) (stateAt m c n (Nat.lt_of_succ_lt hn)) :=
          stateAt_middle m c ⟨n + 1, hn⟩ h0 h3
        rw [e]
        refine ⟨fun d => ?_, ?_, ?_⟩
        · rw [leftMiddle_row]; exact row_any m c ⟨n + 1, hn⟩ d
        · rw [leftMiddle_len]; exact len_any m c ⟨n + 1, hn⟩
        · rw [leftMiddle_sum]; exact sum_any m c n hn h0 _ hs

/-- At the last chunk of every sequence the output block holds, at every entry, the sequence's final
    running sum. -/
theorem lastOk (c : Dev nD) : LastOk m c := by
  intro t h3 j
  obtain ⟨n, hn⟩ := t
  change n % 4 = 3 at h3
  obtain ⟨n', rfl⟩ : ∃ n', n = n' + 1 := ⟨n - 1, by omega⟩
  have h0 : ¬(n' + 1) % 4 = 0 := by omega
  have e : stateAt m c (n' + 1) hn = leftLast c ⟨n' + 1, hn⟩ (notFirst_of ⟨n' + 1, hn⟩ h0) (later_of ⟨n' + 1, hn⟩ h0)
      (last_of ⟨n' + 1, hn⟩ h3) (iblk m c 0 ⟨n' + 1, hn⟩) (stateAt m c n' (Nat.lt_of_succ_lt hn)) :=
    stateAt_last m c ⟨n' + 1, hn⟩ h0 h3
  show (stateAt m c (n' + 1) hn).1 j = _
  rw [e, leftLast_out, pay3, sum_any m c n' hn h0 _ (good m c n' (Nat.lt_of_succ_lt hn))]
  exact acc_congr (inp m c) _ h3 _ _

end Cert.KValue

end
-- ==== Proof.RefValue.lean ====
import proofs.«130767_j40424232190289_2_alg».proof.Proof.Gen.ReferenceIdeal.Run
import proofs.«130767_j40424232190289_2_alg».proof.Proof.Gen.ReferenceIdeal.Read
import proofs.«130767_j40424232190289_2_alg».proof.Proof.SpecArr
import Idealize.ShloMosaic.Lib.ValueIdx

/-! The reference program, one operation at a time, is the formula `Cert.Spec.tail (Cert.Spec.totalR x)`.

Each lemma reads one intermediate array of the reference at explicit coordinates (sequence, row,
entry) and says which formula of the specification it holds there. The order is the program's:
the squared length of a row, its clamped length, the normalised row, the product of two
neighbouring normalised rows, the sum of all such products, and the ending `1 - s / 32760`. -/

noncomputable section

namespace Cert.RefValue

open Cert.ReferenceIdeal Cert.ReferenceIdeal.Read Idealize.ShloMosaic Idealize.ShloMosaic.ValueIdx

/-- The input array of the reference. -/
abbrev In := (⟨Cert.ReferenceIdeal.S8x4096x2048, .f32⟩ : BufTy).Contents (Elt Ideal)

/-! ## How the layout operations move coordinates -/

/-- Summing out the entry axis: entry `k` of row `(b, r)`. -/
theorem idx_sq (b : Fin 8) (r : Fin 4096) (k : Fin 2048) : idx_main_call0_v1 (ix2 b r) k = ix3 b r k :=
  funext fun a => Fin.ext (by match a with | ⟨0, _⟩ => rfl | ⟨1, _⟩ => rfl | ⟨2, _⟩ => rfl)

/-- A row's squared length kept with a trailing axis of size one. -/
theorem idx_keep (b : Fin 8) (r : Fin 4096) (z : Fin 1) : idx_main_call0_v2 (ix3 b r z) = ix2 b r :=
  funext fun a => Fin.ext (by match a with | ⟨0, _⟩ => rfl | ⟨1, _⟩ => rfl)

/-- A row's clamped length repeated along the entry axis. -/
theorem idx_rep (b : Fin 8) (r : Fin 4096) (d : Fin 2048) : idx_main_v3 (ix3 b r d) = ix3 b r (0 : Fin 1) :=
  funext fun a => Fin.ext (by match a with | ⟨0, _⟩ => rfl | ⟨1, _⟩ => rfl | ⟨2, _⟩ => rfl)

/-- Summing out the entry axis of the products: entry `k` of pair `(b, i)`. -/
theorem idx_pair (b : Fin 8) (i : Fin 4095) (k : Fin 2048) : idx_main_v8 (ix2 b i) k = ix3 b i k :=
  funext fun a => Fin.ext (by match a with | ⟨0, _⟩ => rfl | ⟨1, _⟩ => rfl | ⟨2, _⟩ => rfl)

/-- The slice that drops the last row reads the first row of the pair. -/
theorem idx_lo (b : Fin 8) (i : Fin 4095) (k : Fin 2048) : idx_main_v5 (ix3 b i k) = ix3 b (Cert.Spec.lo i) k :=
  funext fun a => Fin.ext (by match a with | ⟨0, _⟩ => rfl | ⟨1, _⟩ => rfl | ⟨2, _⟩ => rfl)

/-- The slice that drops the first row reads the second row of the pair. -/
theorem idx_hi (b : Fin 8) (i : Fin 4095) (k : Fin 2048) : idx_main_v6 (ix3 b i k) = ix3 b (Cert.Spec.hi i) k :=
  funext fun a => Fin.ext (by match a with | ⟨0, _⟩ => rfl | ⟨1, _⟩ => rfl | ⟨2, _⟩ => rfl)

/-! ## The intermediate arrays -/

/-- The sum of a row's squares, started from zero, is the row's squared length. -/
theorem sq_eq (x0 : In) (b : Fin 8) (r : Fin 4096) :
    val_main_call0_v1 (F := Ideal) x0 (ix2 b r) = Cert.Spec.sq (Cert.Spec.ofArray x0) b r := by
  rw [val_main_call0_v1_apply, val_main_call0_cst_apply, Ideal.ofBits_def, Ideal.ofBits_zero_f32, zero_add]
  refine Finset.sum_congr rfl fun k _ => ?_
  rw [val_main_call0_v0_apply, Ideal.mulf_def, idx_sq]
  rfl

/-- The larger of the square root of the squared length and the clamp is the clamped length. -/
theorem len_eq (x0 : In) (b : Fin 8) (r : Fin 4096) :
    val_main_v2 (F := Ideal) x0 (ix3 b r (0 : Fin 1)) = Cert.Spec.len (Cert.Spec.ofArray x0) b r := by
  rw [val_main_v2_apply, val_main_v0_apply, val_main_call0_v2_apply, val_main_v1_apply, val_main_cst_apply,
    Ideal.maximumf_def, Ideal.hostUnary_sqrt_def, Ideal.ofBits_def, idx_keep, sq_eq]
  rfl

/-- An entry over its row's clamped length is the normalised row's entry. -/
theorem unit_eq (x0 : In) (b : Fin 8) (r : Fin 4096) (d : Fin 2048) :
    val_main_v4 (F := Ideal) x0 (ix3 b r d) = Cert.Spec.unit (Cert.Spec.ofArray x0) b r d := by
  rw [val_main_v4_apply, val_main_v3_apply, Ideal.hostDivf_def, idx_rep, len_eq]
  rfl

/-- The sum over the entries of the products of two neighbouring normalised rows is the pair's cosine. -/
theorem cos_eq (x0 : In) (b : Fin 8) (i : Fin 4095) :
    val_main_v8 (F := Ideal) x0 (ix2 b i) = Cert.Spec.cosR (Cert.Spec.ofArray x0) b i := by
  rw [val_main_v8_apply, val_main_cst_0_apply, Ideal.ofBits_def, Ideal.ofBits_zero_f32, zero_add]
  refine Finset.sum_congr rfl fun k _ => ?_
  rw [val_main_v7_apply, val_main_v5_apply, val_main_v6_apply, Ideal.mulf_def, idx_pair, idx_lo, idx_hi,
    unit_eq, unit_eq]

/-- The sum over all pairs of all sequences is the sum of all cosines. -/
theorem total_eq (x0 : In) (j : S_.Idx) :
    val_main_v9 (F := Ideal) x0 j = Cert.Spec.totalR (Cert.Spec.ofArray x0) := by
  rw [val_main_v9_apply, val_main_cst_1_apply, Ideal.ofBits_def, Ideal.ofBits_zero_f32, zero_add, sum_idx2]
  refine Finset.sum_congr rfl fun b _ => Finset.sum_congr rfl fun i _ => ?_
  exact cos_eq x0 b i

/-- The reference computes one minus the mean of all cosines. -/
theorem ref_eq (x0 : (⟨Cert.ReferenceIdeal.S8x4096x2048, .f32⟩ : BufTy).Contents (Elt Ideal)) :
    Cert.ReferenceIdeal.Read.val_main_v11 (F := Ideal) x0 = fun _ => Cert.Spec.tail (Cert.Spec.totalR (Cert.Spec.ofArray x0)) := by
  funext j
  rw [val_main_v11_apply, val_main_cst_3_apply, val_main_v10_apply, val_main_cst_2_apply, Ideal.subf_def,
    Ideal.hostDivf_def, Ideal.ofBits_def, Ideal.ofBits_def, total_eq]
  rfl

end Cert.RefValue

end
-- ==== Proof.Finite.lean ====
import proofs.«130767_j40424232190289_2_alg».proof.Pre_finite_inputs
import proofs.«130767_j40424232190289_2_alg».proof.Proof.SpecArr
import Idealize.ShloMosaic.Lib.ReduceAll
import Idealize.ShloMosaic.Lib.ValueIdx

/-! From the stated precondition to "every entry of the input is a real number".

The precondition says `all (|x| < +∞)` is true. An `all` that is true is true at every index, and
an extended real whose absolute value is below `+∞` is neither infinity, so it is a real number. -/

noncomputable section

namespace Cert.RefValue

open Idealize.ShloMosaic Idealize.ShloMosaic.ValueIdx

/-- The scalar shape has one index. -/
instance : Subsingleton Cert.Pre_finite_inputs.S_.Idx := ⟨fun a b => funext fun d => d.elim0⟩

/-- The single-precision pattern of `+∞` denotes the top element of the extended reals. -/
theorem ofBits_inf : Ideal.ofBits .f32 0x7F800000#32 = (⊤ : EReal) := by simp [Ideal.ofBits, Ideal.ieee]

/-- An extended real whose absolute value `max x (-x)` compares below `+∞` is a real number:
    for `x = ⊤` the maximum is `⊤`, for `x = ⊥` it is `-⊥ = ⊤`, and `⊤ < ⊤` is false. -/
theorem real_of_abs_lt_inf (x : EReal)
    (h : Ideal.cmp .olt (max x (-x)) (Ideal.ofBits .f32 0x7F800000#32) = 1#1) : ∃ y : ℝ, x = (y : EReal) := by
  rw [ofBits_inf] at h
  unfold Ideal.cmp at h
  induction x using EReal.rec with
  | bot => simp at h
  | coe r => exact ⟨r, rfl⟩
  | top => simp at h

/-- Under the precondition every entry of the input is a real number. -/
theorem isReal_of_pre [Cert.Pre_finite_inputs.Facts] (a : FVec Ideal Cert.Pre_finite_inputs.S8x4096x2048 .f32)
    (h : Cert.Pre_finite_inputs.fn (F := Ideal) a = fun _ => 1#1) : Cert.Spec.IsReal (Cert.Spec.ofArray a) := by
  intro b r d
  have h0 := congrFun h ix0
  dsimp only [Cert.Pre_finite_inputs.fn] at h0
  have hi := Host.reduce_andi_all _ _ _ _ _ h0 (ix3 b r d)
  exact real_of_abs_lt_inf _ hi

end Cert.RefValue

end
-- ==== Proof.Algebra1.lean ====
import proofs.«130767_j40424232190289_2_alg».proof.Proof.Spec

/-! General facts used to compare the two groupings.

Three facts about real numbers inside the extended reals (the lower clamp is a positive real;
the inclusion of the reals respects maxima and finite sums), and one fact about regrouping a sum
over the naturals: a sequence cut into blocks of `n + 1` consecutive terms, each block summed
without its last term and the left-out terms added back, has the sum of the sequence itself. -/

open Idealize.ShloMosaic

namespace Cert.Algebra

open Cert.Spec

/-- The lower clamp is a positive real number: its pattern has sign 0, exponent field 87 and
    fraction field 834764, so it denotes `(2^23 + 834764) · 2^(87 - 127 - 23)`. -/
theorem eps_real : ∃ e : ℝ, 0 < e ∧ eps = (e : EReal) := by
  refine ⟨(2 ^ 23 + 834764 : ℕ) * (2 : ℝ) ^ ((87 : Int) - 127 - 23), by positivity, ?_⟩
  simp [eps, Ideal.ofBits, Ideal.ieee, -EReal.coe_mul]

/-- The inclusion of the reals in the extended reals is monotone, so it respects maxima. -/
theorem coe_max (a b : ℝ) : ((max a b : ℝ) : EReal) = max (a : EReal) (b : EReal) :=
  EReal.coe_strictMono.monotone.map_max

/-- The inclusion of the reals in the extended reals respects finite sums (induction on the
    index set, from its respecting `0` and `+`). -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Regrouping: cut `P 0, P 1, …` into blocks of `n + 1` terms. The first `n` terms of each of the
    blocks `0, …, m`, together with the last terms of the blocks `0, …, m - 1`, are exactly the
    first `(n + 1) m + n` terms of the sequence. Induction on `m`: the step adds the term
    `P ((n + 1) m + n)` and then the `n` terms starting at `(n + 1) (m + 1)`. -/
theorem regroup (P : ℕ → ℝ) (n m : ℕ) :
    (∑ c ∈ Finset.range (m + 1), ∑ j ∈ Finset.range n, P ((n + 1) * c + j))
      + ∑ c ∈ Finset.range m, P ((n + 1) * c + n)
    = ∑ i ∈ Finset.range ((n + 1) * m + n), P i := by
  induction m with
  | zero => simp
  | succ m ih =>
    rw [Finset.sum_range_succ (fun c => ∑ j ∈ Finset.range n, P ((n + 1) * c + j)) (m + 1),
        Finset.sum_range_succ (fun c => P ((n + 1) * c + n)) m]
    have h : (n + 1) * (m + 1) + n = ((n + 1) * m + n + 1) + n := by ring
    rw [h, Finset.sum_range_add P ((n + 1) * m + n + 1) n,
        Finset.sum_range_succ P ((n + 1) * m + n), ← ih]
    have h2 : ∀ j, (n + 1) * (m + 1) + j = (n + 1) * m + n + 1 + j := by intro j; ring
    simp only [h2]
    ring

/-- The regrouping for four blocks of `N = n + 1` terms, added up in the order
    block 0, last term of block 0, block 1, last term of block 1, block 2, last term of block 2,
    block 3 (each block without its last term): the sum of the first `3 N + n` terms. -/
theorem regroup4 (P : ℕ → ℝ) (N n T : ℕ) (hN : N = n + 1) (hT : T = N * 3 + n) :
    (∑ j ∈ Finset.range n, P (N * 0 + j)) + P (N * 0 + n) + (∑ j ∈ Finset.range n, P (N * 1 + j))
        + P (N * 1 + n) + (∑ j ∈ Finset.range n, P (N * 2 + j)) + P (N * 2 + n)
        + (∑ j ∈ Finset.range n, P (N * 3 + j))
      = ∑ i ∈ Finset.range T, P i := by
  subst hN hT
  rw [← regroup P n 3]
  simp only [Finset.sum_range_succ, Finset.sum_range_zero]
  ring

end Cert.Algebra
-- ==== Proof.Algebra2.lean ====
import proofs.«130767_j40424232190289_2_alg».proof.Proof.Algebra1

/-! The cosines over the reals.

When every entry of the input is a real number, every intermediate value of both programs is a
real number: a squared length is a sum of squares, hence `≥ 0`, its square root is the real
square root, the clamped length is `≥` the positive clamp, hence `> 0`, and a division by a
positive real is the product with its reciprocal. So both spellings of a cosine are (inclusions
of) real numbers, and over the reals they agree:
`(Σ_d x_d y_d) · 1/(L L') = Σ_d (x_d · 1/L) (y_d · 1/L')`. -/

open Idealize.ShloMosaic

noncomputable section

namespace Cert.Algebra

open Cert.Spec

/-- A real input, by coordinates: sequence, row, entry. -/
abbrev ArrR := Fin 8 → Fin 4096 → Fin 2048 → ℝ

/-- A real input seen in the extended reals. -/
def ofR (X : ArrR) : Arr := fun b r d => (X b r d : EReal)

/-- An input all of whose entries are real is a real input seen in the extended reals. -/
theorem exists_real (x : Arr) (hx : IsReal x) : ∃ X : ArrR, x = ofR X := by
  choose X hX using hx
  exact ⟨X, by funext b r d; exact hX b r d⟩

/-- The squared length of a real row. -/
def sqR (X : ArrR) (b : Fin 8) (r : Fin 4096) : ℝ := ∑ d : Fin 2048, X b r d * X b r d

/-- The length of a real row, clamped from below by `e`. -/
def lenR (e : ℝ) (X : ArrR) (b : Fin 8) (r : Fin 4096) : ℝ := max (Real.sqrt (sqR X b r)) e

/-- The cosine of two real rows: their product times the reciprocal of the product of their
    clamped lengths. -/
def cosReal (e : ℝ) (X : ArrR) (b : Fin 8) (r r' : Fin 4096) : ℝ :=
  (∑ d : Fin 2048, X b r d * X b r' d) * (1 / (lenR e X b r * lenR e X b r'))

/-- The squared length of a real row is the real sum of squares. -/
theorem sq_ofR (X : ArrR) (b : Fin 8) (r : Fin 4096) : sq (ofR X) b r = (sqR X b r : EReal) := by
  simp only [Spec.sq, ofR, sqR, coe_sum, EReal.coe_mul]

/-- A sum of squares is `≥ 0`. -/
theorem sqR_nonneg (X : ArrR) (b : Fin 8) (r : Fin 4096) : 0 ≤ sqR X b r :=
  Finset.sum_nonneg (fun d _ => mul_self_nonneg _)

/-- The clamped length of a real row is the real number `max (√(Σ_d x_d²)) e`: the square root
    of a real `≥ 0` is the real square root. -/
theorem len_ofR {e : ℝ} (he : eps = (e : EReal)) (X : ArrR) (b : Fin 8) (r : Fin 4096) :
    len (ofR X) b r = (lenR e X b r : EReal) := by
  rw [len, sq_ofR, Ideal.sqrt_coe, if_neg (not_lt.2 (sqR_nonneg X b r)), he, lenR, coe_max]

/-- A length clamped from below by a positive number is positive. -/
theorem lenR_pos {e : ℝ} (he : 0 < e) (X : ArrR) (b : Fin 8) (r : Fin 4096) : 0 < lenR e X b r :=
  lt_max_of_lt_right he

/-- The kernel's cosine of two real rows is the real cosine: the product of the two lengths is a
    nonzero real, so dividing by it is multiplying by its reciprocal. -/
theorem cosK_ofR {e : ℝ} (he0 : 0 < e) (he : eps = (e : EReal)) (X : ArrR) (b : Fin 8)
    (r r' : Fin 4096) : cosK (ofR X) b r r' = (cosReal e X b r r' : EReal) := by
  have h : lenR e X b r * lenR e X b r' ≠ 0 :=
    (mul_pos (lenR_pos he0 X b r) (lenR_pos he0 X b r')).ne'
  rw [cosK, len_ofR he, len_ofR he, ← EReal.coe_mul, Ideal.div_coe h, dot]
  simp only [ofR, cosReal, coe_sum, EReal.coe_mul]

/-- The reference's cosine of the `i`-th pair of real rows is the same real cosine:
    `Σ_d (x_d · 1/L) (y_d · 1/L') = (Σ_d x_d y_d) · 1/(L L')`, term by term. -/
theorem cosR_ofR {e : ℝ} (he0 : 0 < e) (he : eps = (e : EReal)) (X : ArrR) (b : Fin 8)
    (i : Fin 4095) : cosR (ofR X) b i = (cosReal e X b (lo i) (hi i) : EReal) := by
  have h1 := (lenR_pos he0 X b (lo i)).ne'
  have h2 := (lenR_pos he0 X b (hi i)).ne'
  simp only [cosR, unit, len_ofR he, Ideal.div_coe h1, Ideal.div_coe h2]
  simp only [ofR, ← EReal.coe_mul, ← coe_sum]
  refine congrArg Real.toEReal ?_
  rw [cosReal, Finset.sum_mul]
  refine Finset.sum_congr rfl (fun d _ => ?_)
  field_simp

end Cert.Algebra

end
-- ==== Proof.Algebra.lean ====
import proofs.«130767_j40424232190289_2_alg».proof.Proof.Algebra2

/-! The two groupings of the pairs agree.

For a real input write `p i` (`i < 4095`) for the cosine of rows `i` and `i + 1` of a sequence.
The reference adds `p 0 + … + p 4094`. The kernel cuts the 4096 rows into four chunks of 1024;
a chunk `c` by itself gives `Σ_{j < 1024} cos (row 1024c + j, row 1024c + (j + 1) mod 1024)` minus the
pair that wraps around, that is `Σ_{j < 1023} p (1024c + j)` (a subtraction of real numbers, so the
wrap-around pair cancels exactly); between two chunks it adds the pair across the boundary,
`p (1024c + 1023)`. Since `4095 = 4 · 1023 + 3`, these are all the `p i`, each once. -/

open Idealize.ShloMosaic

noncomputable section

namespace Cert.Algebra

open Cert.Spec

/-- The cosines of the neighbouring pairs of a sequence, as a sequence on the naturals:
    `p i` for `i < 4095`, and `0` from there on. -/
def pairs (e : ℝ) (X : ArrR) (b : Fin 8) (i : ℕ) : ℝ :=
  if h : i < 4095 then cosReal e X b (lo ⟨i, h⟩) (hi ⟨i, h⟩) else 0

/-- Inside a chunk, before its last row: row `j` of chunk `c` is row `1024c + j`, and the next
    row of the chunk is row `1024c + j + 1` (no wrap-around, as `j + 1 < 1024`); so the cosine of
    the two is `p (1024c + j)`. -/
theorem cosReal_row_next (e : ℝ) (X : ArrR) (b : Fin 8) (c : Fin 4) (j : ℕ) (hj : j < 1023) :
    cosReal e X b (row c ⟨j, by omega⟩) (row c (next ⟨j, by omega⟩))
      = pairs e X b (1024 * c.val + j) := by
  have h : 1024 * c.val + j < 4095 := by omega
  have e1 : row c ⟨j, by omega⟩ = lo ⟨1024 * c.val + j, h⟩ := rfl
  have e2 : row c (next ⟨j, by omega⟩) = hi ⟨1024 * c.val + j, h⟩ := by
    apply Fin.ext
    show 1024 * c.val + (j + 1) % 1024 = 1 + (1024 * c.val + j)
    rw [Nat.mod_eq_of_lt (by omega)]; omega
  rw [pairs, dif_pos h, e1, e2]

/-- Across a chunk boundary: the last row of chunk `k` is row `1024k + 1023` and the first row of
    chunk `k + 1` is row `1024k + 1024`; so the cosine of the two is `p (1024k + 1023)`. -/
theorem cross_pairs (e : ℝ) (X : ArrR) (b : Fin 8) (k : ℕ) (hk : k + 1 < 4) :
    cosReal e X b (row ⟨k, by omega⟩ 1023) (row ⟨k + 1, hk⟩ 0) = pairs e X b (1024 * k + 1023) := by
  have h : 1024 * k + 1023 < 4095 := by omega
  have e1 : row ⟨k, by omega⟩ 1023 = lo ⟨1024 * k + 1023, h⟩ := rfl
  have e2 : row ⟨k + 1, hk⟩ 0 = hi ⟨1024 * k + 1023, h⟩ := by
    apply Fin.ext
    show 1024 * (k + 1) + 0 = 1 + (1024 * k + 1023)
    omega
  rw [pairs, dif_pos h, e1, e2]

/-- What a chunk contributes by itself is `Σ_{j < 1023} p (1024c + j)`: split off the last term of
    the sum over the 1024 rows; it is the wrap-around pair (row 1023 against row 0), which is
    subtracted again, and the remaining 1023 terms are pairs of neighbours. -/
theorem within_ofR {e : ℝ} (he0 : 0 < e) (he : eps = (e : EReal)) (X : ArrR) (b : Fin 8)
    (c : Fin 4) :
    within (ofR X) b c
      = ((∑ j ∈ Finset.range 1023, pairs e X b (1024 * c.val + j) : ℝ) : EReal) := by
  rw [within]
  simp only [cosK_ofR he0 he]
  rw [← coe_sum, ← EReal.coe_sub]
  refine congrArg Real.toEReal ?_
  rw [Fin.sum_univ_castSucc]
  have hl : next (Fin.last 1023) = 0 := rfl
  have h1023 : (1023 : Fin 1024) = Fin.last 1023 := rfl
  rw [h1023, hl, add_sub_cancel_right]
  rw [← Fin.sum_univ_eq_sum_range (fun j => pairs e X b (1024 * c.val + j)) 1023]
  refine Finset.sum_congr rfl (fun j _ => ?_)
  exact cosReal_row_next e X b c j.val j.isLt

/-- The running sum after the last chunk, written out: chunk 0, the pair across the first
    boundary, chunk 1, the pair across the second boundary, chunk 2, the pair across the third
    boundary, chunk 3, added from the left. -/
theorem acc_three (x : Arr) (b : Fin 8) (h : 3 < 4) :
    acc x b 3 h =
      ((((((within x b ⟨0, by omega⟩
        + cosK x b (row ⟨0, by omega⟩ 1023) (row ⟨1, by omega⟩ 0)) + within x b ⟨1, by omega⟩)
        + cosK x b (row ⟨1, by omega⟩ 1023) (row ⟨2, by omega⟩ 0)) + within x b ⟨2, by omega⟩)
        + cosK x b (row ⟨2, by omega⟩ 1023) (row ⟨3, by omega⟩ 0)) + within x b ⟨3, by omega⟩) :=
  rfl

/-- The final running sum of a real sequence is `p 0 + … + p 4094`: all seven summands are real,
    and the regrouping of four blocks of 1024 (each without its last term, the last terms of the
    first three added back) gives the first `3 · 1024 + 1023 = 4095` terms. -/
theorem acc_ofR {e : ℝ} (he0 : 0 < e) (he : eps = (e : EReal)) (X : ArrR) (b : Fin 8) (h : 3 < 4) :
    acc (ofR X) b 3 h = ((∑ i ∈ Finset.range 4095, pairs e X b i : ℝ) : EReal) := by
  rw [acc_three]
  simp only [within_ofR he0 he, cosK_ofR he0 he]
  rw [cross_pairs e X b 0 (by omega), cross_pairs e X b 1 (by omega),
      cross_pairs e X b 2 (by omega)]
  simp only [← EReal.coe_add]
  refine congrArg Real.toEReal ?_
  exact regroup4 (pairs e X b) 1024 1023 4095 rfl rfl

end Cert.Algebra

namespace Cert.Spec

open Cert.Algebra

/-- On real inputs the kernel's grouping and the reference's grouping give the same total: for
    every sequence both are the sum `p 0 + … + p 4094` of the cosines of the 4095 pairs of
    neighbouring rows. -/
theorem totalK_eq_totalR (x : Arr) (hx : IsReal x) : totalK x = totalR x := by
  obtain ⟨X, rfl⟩ := exists_real x hx
  obtain ⟨e, he0, he⟩ := eps_real
  rw [totalK, totalR]
  refine Finset.sum_congr rfl (fun b _ => ?_)
  rw [acc_ofR he0 he]
  simp only [cosR_ofR he0 he]
  rw [← coe_sum]
  refine congrArg Real.toEReal ?_
  rw [← Fin.sum_univ_eq_sum_range (pairs e X b) 4095]
  refine Finset.sum_congr rfl (fun i _ => ?_)
  rw [pairs, dif_pos i.isLt]

end Cert.Spec

end
-- ==== Proof.lean ====
/- The certificate of the coherence kernel against its reference.

   Input: eight sequences of 4096 rows of 2048 single-precision numbers. Both programs return one
   minus the mean, over the 8 · 4095 pairs of neighbouring rows of a sequence, of the cosine of the
   angle between the two rows, each row's length clamped from below at 1e-12.

   The reference normalises every row and multiplies neighbouring normalised rows. The kernel walks a
   grid of 8 sequences by 4 chunks of 1024 rows; at a chunk it multiplies every row with the next row
   of the chunk (the last wrapping around to the first), divides each product by the two clamped
   lengths, sums the 1024 quotients and takes the wrapped pair out again; three scratch buffers carry
   the chunk's last row, that row's length and the sequence's running sum to the next chunk, which adds
   the pair across the boundary; at a sequence's last chunk the running sum fills the sequence's
   output block, and the host lines add the eight sums, divide by 32760 and subtract from one.

   The three frames: the kernel's run over the grid is proved once for any float instance (the body's
   three branches, the state of the four buffers after each point by recursion, the region's invariant)
   and read at the word-level and at the ideal instance; the reference has no kernel and its frame is
   its run with the result dropped. The idealization rewrote nothing, so `preserves` is trivial.

   The value claim: at the ideal instance the state after each point is computed by induction (the
   running sum after chunk c of sequence b is `Spec.acc x b c`), the output array and the host lines give
   `Spec.tail (Spec.totalK x)`; the reference's operations read index by index give
   `Spec.tail (Spec.totalR x)`; and for an input of real numbers (the precondition) the two totals are
   equal: a quotient of a sum is the sum of the quotients, the wrapped pair cancels, and the 4095 pairs
   are the 4 · 1023 pairs inside the chunks and the 3 pairs across the boundaries. -/
import proofs.«130767_j40424232190289_2_alg».proof.Defs
import proofs.«130767_j40424232190289_2_alg».proof.Proof.Gen.Kernel
import proofs.«130767_j40424232190289_2_alg».proof.Proof.Gen.KernelIdeal
import proofs.«130767_j40424232190289_2_alg».proof.Proof.Gen.ReferenceIdeal
import proofs.«130767_j40424232190289_2_alg».proof.Proof.Gen.Pre_finite_inputs
import proofs.«130767_j40424232190289_2_alg».proof.Proof.K.Frame
import proofs.«130767_j40424232190289_2_alg».proof.Proof.KI.Frame
import proofs.«130767_j40424232190289_2_alg».proof.Proof.KFinal
import proofs.«130767_j40424232190289_2_alg».proof.Proof.KState
import proofs.«130767_j40424232190289_2_alg».proof.Proof.RefValue
import proofs.«130767_j40424232190289_2_alg».proof.Proof.Finite
import proofs.«130767_j40424232190289_2_alg».proof.Proof.Algebra
import Idealize.ShloMosaic.Adequacy
import Idealize.ShloMosaic.Init

noncomputable section

namespace Cert.Proof

open Idealize.ShloMosaic Idealize.SL.Sem

/-- The reference's run, its result restated as the kernel's total: the operations read index by index give the
    reference's total of the reference's own input, the two inputs agree, and on an input of real numbers the
    reference's total is the kernel's. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11)
            = (fun _ => Cert.Spec.tail (Cert.Spec.totalK (Cert.Spec.ofArray (m ((c.tc : Thread Cert.KernelIdeal.nD Cert.KernelIdeal.τ).loc Cert.KernelIdeal.main_arg0)))))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run Cert.ReferenceIdeal.defs _ _).mono (fun _ h c => ⟨by
      rw [(h c).1, Cert.ReferenceIdeal.Read.val_main_v11_eq, Cert.RefValue.ref_eq, hagree c,
        Cert.Spec.totalK_eq_totalR _ (Cert.RefValue.isReal_of_pre _ (hpre c))]; rfl, (h c).2⟩)
    (Cert.ReferenceIdeal.Value.run (F := Ideal) m' g')

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  fun m ρ _ => (θ_run Cert.ReferenceIdeal.defs _ _).mono (fun _ h c => (h c).2) (Cert.ReferenceIdeal.Value.run (F := Ideal) m ρ),
  trivial,
  fun m ρ m' ρ' hpre hagree =>
    ⟨fun c => fun _ => Cert.Spec.tail (Cert.Spec.totalK (Cert.KValue.inp m c)),
      Cert.KValue.run_value m ρ (fun c => Cert.KValue.lastOk m c),
      ref_run m m' ρ' hpre hagree⟩⟩

end Cert.Proof

end
